-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x256 : Shape := ⟨2, ![256, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S64x1024x256 .f32) (main_arg1 : FVec F S64x1024x256 .f32) (main_arg2 : FVec F S256x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S64x1024x256 : Shape := ⟨3, ![64, 1024, 256]⟩
abbrev S256x256 : Shape := ⟨2, ![256, 256]⟩
abbrev S64x256 : Shape := ⟨2, ![64, 256]⟩
abbrev S8x1024x256 : Shape := ⟨3, ![8, 1024, 256]⟩
abbrev S8x256 : Shape := ⟨2, ![8, 256]⟩
abbrev S1x1024x256 : Shape := ⟨3, ![1, 1024, 256]⟩
abbrev S1024x256 : Shape := ⟨2, ![1024, 256]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1 : Shape := ⟨1, ![1]⟩
abbrev S1x1 : Shape := ⟨2, ![1, 1]⟩
abbrev S1x256 : Shape := ⟨2, ![1, 256]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S64x256, .f32⟩
  | .hbm, ⟨4, _⟩ => ⟨S64x256, .f32⟩
  | .local _ .vmem, ⟨0, _⟩ => ⟨S8x1024x256, .f32⟩
  | .local _ .vmem, ⟨1, _⟩ => ⟨S8x1024x256, .f32⟩
  | .local _ .vmem, ⟨2, _⟩ => ⟨S8x1024x256, .f32⟩
  | .local _ .vmem, ⟨3, _⟩ => ⟨S256x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  reduces_S1024x1024_S1024 : S1024x1024.Reduces [0] S1024
  shapeCasts_S1024_S1x1024 : S1024.ShapeCasts S1x1024
  reduces_S1024x1024_S1024_2 : S1024x1024.Reduces [1] S1024
  shapeCasts_S1024_S1024x1 : S1024.ShapeCasts S1024x1
  reduces_S1x1024_S1 : S1x1024.Reduces [1] S1
  shapeCasts_S1_S1x1 : S1.ShapeCasts S1x1
  broadcasts_S1x1_S1x1024 : S1x1.Broadcasts S1x1024
  reduces_S1024x1_S1 : S1024x1.Reduces [0] S1
  broadcasts_S1x1_S1024x1 : S1x1.Broadcasts S1024x1
  broadcasts_S1024x1_S1024x256 : S1024x1.Broadcasts S1024x256
  reduces_S1024x256_S256 : S1024x256.Reduces [0] S256
  shapeCasts_S256_S1x256 : S256.ShapeCasts S1x256
  shapeCasts_S1x256_S256 : S1x256.ShapeCasts S256
  inb_S8x256_S1x256_0_0 : ∀ a, (![0, 0] : Fin 2 → Nat) a + S1x256.size a ≤ S8x256.size a
  h_S1x256 : 0 < S1x256.numel
  inb_S8x1024x256_S1x1024x256_1_0_0 : ∀ a, (![1, 0, 0] : Fin 3 → Nat) a + S1x1024x256.size a ≤ S8x1024x256.size a
  inb_S8x256_S1x256_1_0 : ∀ a, (![1, 0] : Fin 2 → Nat) a + S1x256.size a ≤ S8x256.size a
  inb_S8x1024x256_S1x1024x256_2_0_0 : ∀ a, (![2, 0, 0] : Fin 3 → Nat) a + S1x1024x256.size a ≤ S8x1024x256.size a
  inb_S8x256_S1x256_2_0 : ∀ a, (![2, 0] : Fin 2 → Nat) a + S1x256.size a ≤ S8x256.size a
  inb_S8x1024x256_S1x1024x256_3_0_0 : ∀ a, (![3, 0, 0] : Fin 3 → Nat) a + S1x1024x256.size a ≤ S8x1024x256.size a
  inb_S8x256_S1x256_3_0 : ∀ a, (![3, 0] : Fin 2 → Nat) a + S1x256.size a ≤ S8x256.size a
  inb_S8x1024x256_S1x1024x256_4_0_0 : ∀ a, (![4, 0, 0] : Fin 3 → Nat) a + S1x1024x256.size a ≤ S8x1024x256.size a
  inb_S8x256_S1x256_4_0 : ∀ a, (![4, 0] : Fin 2 → Nat) a + S1x256.size a ≤ S8x256.size a
  inb_S8x1024x256_S1x1024x256_5_0_0 : ∀ a, (![5, 0, 0] : Fin 3 → Nat) a + S1x1024x256.size a ≤ S8x1024x256.size a
  inb_S8x256_S1x256_5_0 : ∀ a, (![5, 0] : Fin 2 → Nat) a + S1x256.size a ≤ S8x256.size a
  inb_S8x1024x256_S1x1024x256_6_0_0 : ∀ a, (![6, 0, 0] : Fin 3 → Nat) a + S1x1024x256.size a ≤ S8x1024x256.size a
  inb_S8x256_S1x256_6_0 : ∀ a, (![6, 0] : Fin 2 → Nat) a + S1x256.size a ≤ S8x256.size a
  inb_S8x1024x256_S1x1024x256_7_0_0 : ∀ a, (![7, 0, 0] : Fin 3 → Nat) a + S1x1024x256.size a ≤ S8x1024x256.size a
  inb_S8x256_S1x256_7_0 : ∀ a, (![7, 0] : Fin 2 → Nat) a + S1x256.size a ≤ S8x256.size a
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1x1024_S1024x256_S1x256_1_0_0_1_n_n_wf : DotDims.WF S1x1024 S1024x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S64x1024x256.size a
  hwx0_0 : ∀ i : grid0.Coords, EltTy.bits .f32 = 32 ∨ (Rect.block (s := S64x1024x256) S8x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x256.size a ≤ S64x1024x256.size a
  hwx0_1 : ∀ i : grid0.Coords, EltTy.bits .f32 = 32 ∨ (Rect.block (s := S64x1024x256) S8x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S64x256.size a
  hwx0_3 : ∀ i : grid0.Coords, EltTy.bits .f32 = 32 ∨ (Rect.block (s := S64x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S64x256.size a
  hwx0_4 : ∀ i : grid0.Coords, EltTy.bits .f32 = 32 ∨ (Rect.block (s := S64x256) S8x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf

abbrev win0_0 : Pipeline.Window sig grid0 :=
  Pipeline.Window.ofSpec (Memref.whole main_arg0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x256 : Shape := ⟨2, ![256, 256]⟩
abbrev S64x1024x1024 : Shape := ⟨3, ![64, 1024, 1024]⟩
abbrev S_ : Shape := ⟨0, ![]⟩
abbrev S64x1024 : Shape := ⟨2, ![64, 1024]⟩
abbrev S64x1x1024 : Shape := ⟨3, ![64, 1, 1024]⟩
abbrev S64x1 : Shape := ⟨2, ![64, 1]⟩
abbrev S64x1x1 : Shape := ⟨3, ![64, 1, 1]⟩
abbrev S64x1x256 : Shape := ⟨3, ![64, 1, 256]⟩
abbrev S64x256 : Shape := ⟨2, ![64, 256]⟩

abbrev nBuf : Space → Nat
  | .hbm => 44
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S64x1024x256, .f32⟩
  | .hbm, ⟨4, _⟩ => ⟨S64x1024x1024, .f32⟩
  | .hbm, ⟨5, _⟩ => ⟨S64x1024x1024, .f32⟩
  | .hbm, ⟨6, _⟩ => ⟨S_, .f32⟩
  | .hbm, ⟨7, _⟩ => ⟨S64x1024, .f32⟩
  | .hbm, ⟨8, _⟩ => ⟨S64x1x1024, .f32⟩
  | .hbm, ⟨9, _⟩ => ⟨S_, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1x1, .f32⟩
  | .hbm, ⟨15, _⟩ => ⟨S64x1x1024, .f32⟩
  | .hbm, ⟨16, _⟩ => ⟨S64x1x1024, .f32⟩
  | .hbm, ⟨17, _⟩ => ⟨S64x1x1024, .f32⟩
  | .hbm, ⟨18, _⟩ => ⟨S_, .f32⟩
  | .hbm, ⟨19, _⟩ => ⟨S64x1, .f32⟩
  | .hbm, ⟨20, _⟩ => ⟨S64x1x1, .f32⟩
  | .hbm, ⟨21, _⟩ => ⟨S64x1x1024, .f32⟩
  | .hbm, ⟨22, _⟩ => ⟨S64x1x1024, .f32⟩
  | .hbm, ⟨23, _⟩ => ⟨S_, .f32⟩
  | .hbm, ⟨24, _⟩ => ⟨S64x1024, .f32⟩
  | .hbm, ⟨25, _⟩ => ⟨S64x1x1024, .f32⟩
  | .hbm, ⟨26, _⟩ => ⟨S_, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x1x1, .f32⟩
  | .hbm, ⟨32, _⟩ => ⟨S64x1x1024, .f32⟩
  | .hbm, ⟨33, _⟩ => ⟨S64x1x1024, .f32⟩
  | .hbm, ⟨34, _⟩ => ⟨S64x1x1024, .f32⟩
  | .hbm, ⟨35, _⟩ => ⟨S_, .f32⟩
  | .hbm, ⟨36, _⟩ => ⟨S64x1, .f32⟩
  | .hbm, ⟨37, _⟩ => ⟨S64x1x1, .f32⟩
  | .hbm, ⟨38, _⟩ => ⟨S64x1x1024, .f32⟩
  | .hbm, ⟨39, _⟩ => ⟨S64x1x1024, .f32⟩
  | .hbm, ⟨40, _⟩ => ⟨S64x1x256, .f32⟩
  | .hbm, ⟨41, _⟩ => ⟨S64x256, .f32⟩
  | .hbm, ⟨42, _⟩ => ⟨S64x1x256, .f32⟩
  | .hbm, ⟨43, _⟩ => ⟨S64x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S64x1024x1024_S64x1024_d1 : S64x1024x1024.ReducesTo [1] S64x1024
  h_S_ : 0 < S_.numel
  bcast_S64x1024_S64x1x1024_0_2 : S64x1024.BroadcastsInDim S64x1x1024 (![0, 2] : Fin 2 → Fin S64x1x1024.rank)
  reducesTo_S64x1x1024_S64x1_d2 : S64x1x1024.ReducesTo [2] S64x1
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x1024_0_1_2 : S64x1x1.BroadcastsInDim S64x1x1024 (![0, 1, 2] : Fin 3 → Fin S64x1x1024.rank)
  reducesTo_S64x1024x1024_S64x1024_d2 : S64x1024x1024.ReducesTo [2] S64x1024
  shapeCasts_S64x1x256_S64x256 : S64x1x256.ShapeCasts S64x256
  dot_S64x1024x256_S256x256_S64x1024x256_2_0_01_1_n_n_wf : DotDims.WF S64x1024x256 S256x256 S64x1024x256 [2] [0] [0, 1] [1] [] []
  dot_S64x1024x256_S64x1024x256_S64x1024x1024_2_2_1_1_0_0_wf : DotDims.WF S64x1024x256 S64x1024x256 S64x1024x1024 [2] [2] [1] [1] [0] [0]
  dot_S64x1x1024_S64x1024x256_S64x1x256_2_1_1_2_0_0_wf : DotDims.WF S64x1x1024 S64x1024x256 S64x1x256 [2] [1] [1] [2] [0] [0]

variable [Facts₀]

def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf
def dot_S64x1x1024_S64x1024x256_S64x1x256_2_1_1_2_0_0 : DotDims S64x1x1024 S64x1024x256 S64x1x256 where
  lhsContracting := [2]
  rhsContracting := [1]
  lhsNonContracting := [1]
  rhsNonContracting := [2]
  lhsBatch := [0]
  rhsBatch := [0]
  wf := dot_S64x1x1024_S64x1024x256_S64x1x256_2_1_1_2_0_0_wf

class Facts : Prop extends Facts₀ where

variable [Facts]
-- ==== Proof.Spec.lean ====
/-
  The mathematics both programs compute, for ONE batch element, over the extended reals.
  With q, v : [1024, 256] and w : [256, 256]:
    proj  i e   = sum over k of q i k * w k e                          (q times w)
    score i j   = tanh (sum over e of proj i e * v j e)               (the bilinear score, squashed)
    vmax f      = the maximum of f over its 1024 indices, folded from minus infinity
    soft x i    = exp (x i - M) / sum over k of exp (x k - M),  M = max (minus infinity) (vmax x)
    attV d      = sum over j of soft (j' -> max over i of score i j') j * v j d
    attQ d      = sum over i of soft (i' -> max over j of score i' j) i * q i d
  The minus-infinity word is kept as the pattern it is printed with on both sides; nothing here evaluates it.
  `outQ` / `outV` are the [64, 256] result arrays: row B is attQ / attV of batch B of the argument arrays.
-/
import Idealize.ShloMosaic.PureOps.Ideal
import Idealize.ShloMosaic.Lib.ValueIdx

noncomputable section

namespace Cert.CoAtt

open Idealize.ShloMosaic Idealize.ShloMosaic.ValueIdx

/-- Minus infinity, as the f32 pattern both programs print. -/
abbrev ninf : EReal := Ideal.ofBits .f32 0xFF800000#32

/-- Row i of q times column e of w. -/
def proj (q : Fin 1024 → Fin 256 → EReal) (w : Fin 256 → Fin 256 → EReal) (i : Fin 1024) (e : Fin 256) : EReal :=
  ∑ k : Fin 256, q i k * w k e

/-- The squashed bilinear score of query position i against value position j. -/
def score (q v : Fin 1024 → Fin 256 → EReal) (w : Fin 256 → Fin 256 → EReal) (i j : Fin 1024) : EReal :=
  Ideal.tanh (∑ e : Fin 256, proj q w i e * v j e)

/-- The maximum of 1024 values, folded from minus infinity. -/
def vmax (f : Fin 1024 → EReal) : EReal :=
  (Finset.univ : Finset (Fin 1024)).fold max ninf f

/-- The softmax weight of position i among 1024 values, shifted by their maximum. -/
def soft (x : Fin 1024 → EReal) (i : Fin 1024) : EReal :=
  Ideal.div (Ideal.exp (x i - max ninf (vmax x))) (∑ k : Fin 1024, Ideal.exp (x k - max ninf (vmax x)))

/-- The attended value vector: value rows weighted by the softmax of each value position's best score. -/
def attV (q v : Fin 1024 → Fin 256 → EReal) (w : Fin 256 → Fin 256 → EReal) (d : Fin 256) : EReal :=
  ∑ j : Fin 1024, soft (fun j' => vmax fun i => score q v w i j') j * v j d

/-- The attended query vector: query rows weighted by the softmax of each query position's best score. -/
def attQ (q v : Fin 1024 → Fin 256 → EReal) (w : Fin 256 → Fin 256 → EReal) (d : Fin 256) : EReal :=
  ∑ i : Fin 1024, soft (fun i' => vmax fun j => score q v w i' j) i * q i d

/-- Batch B of a [64, 1024, 256] array, as a function of its two inner coordinates. -/
def slab (A : (⟨3, ![64, 1024, 256]⟩ : Shape).Idx → EReal) (B : Fin 64) : Fin 1024 → Fin 256 → EReal :=
  fun a k => A (ix3 B a k)

/-- A [256, 256] array as a function of its two coordinates. -/
def mat (A : (⟨2, ![256, 256]⟩ : Shape).Idx → EReal) : Fin 256 → Fin 256 → EReal :=
  fun k e => A (ix2 k e)

/-- The attended-query result array: row B is `attQ` of batch B. -/
def outQ (A0 A1 : (⟨3, ![64, 1024, 256]⟩ : Shape).Idx → EReal) (A2 : (⟨2, ![256, 256]⟩ : Shape).Idx → EReal) :
    (⟨2, ![64, 256]⟩ : Shape).Idx → EReal :=
  fun i => attQ (slab A0 ⟨(i 0).val, idx2_lt0 i⟩) (slab A1 ⟨(i 0).val, idx2_lt0 i⟩) (mat A2) ⟨(i 1).val, idx2_lt1 i⟩

/-- The attended-value result array: row B is `attV` of batch B. -/
def outV (A0 A1 : (⟨3, ![64, 1024, 256]⟩ : Shape).Idx → EReal) (A2 : (⟨2, ![256, 256]⟩ : Shape).Idx → EReal) :
    (⟨2, ![64, 256]⟩ : Shape).Idx → EReal :=
  fun i => attV (slab A0 ⟨(i 0).val, idx2_lt0 i⟩) (slab A1 ⟨(i 0).val, idx2_lt0 i⟩) (mat A2) ⟨(i 1).val, idx2_lt1 i⟩

theorem outQ_ix2 (A0 A1 : (⟨3, ![64, 1024, 256]⟩ : Shape).Idx → EReal) (A2 : (⟨2, ![256, 256]⟩ : Shape).Idx → EReal)
    (B : Fin 64) (d : Fin 256) : outQ A0 A1 A2 (ix2 B d) = attQ (slab A0 B) (slab A1 B) (mat A2) d := rfl

theorem outV_ix2 (A0 A1 : (⟨3, ![64, 1024, 256]⟩ : Shape).Idx → EReal) (A2 : (⟨2, ![256, 256]⟩ : Shape).Idx → EReal)
    (B : Fin 64) (d : Fin 256) : outV A0 A1 A2 (ix2 B d) = attV (slab A0 B) (slab A1 B) (mat A2) d := rfl

end Cert.CoAtt

end
-- ==== Proof.RowFn.lean ====
/-
  One batch row of the kernel body as two functions of the row's loads: `rowQ w q v` is the attended-query row
  and `rowV w q v` the attended-value row that the body stores for a batch element whose query block row is q,
  value block row is v and weight block is w. The body is the same computation written out eight times, once per
  row of the block; its text is cut into windows at positions that fall differently in each copy, so each copy
  composes its payloads differently. Every copy is nevertheless the same term once the payload names are
  unfolded: that is what the lemmas below record, and with them each output block is the canon of eight row
  stores of ONE function.
-/
import proofs.«147451_j44083544326830_2_alg».proof.Proof.Gen.KernelIdeal.Frame

noncomputable section

namespace Cert.KernelIdeal.Row

open Cert.KernelIdeal Cert.KernelIdeal.Gen Idealize.ShloMosaic Idealize.SL.Sem

variable {F : FTy → Type} [FloatOps F]

/-- The attended-query row: softmax over query positions of each position's best score, times the query rows, summed. -/
def rowQ (w : Vec F S256x256 .f32) (q v : Vec F S1x1024x256 .f32) : FVec F S1x256 .f32 :=
  k0_pay8 (k0_pay3 q) (k0_pay6 w q v)

/-- The attended-value row: softmax over value positions of each position's best score, times the value rows, summed. -/
def rowV (w : Vec F S256x256 .f32) (q v : Vec F S1x1024x256 .f32) : FVec F S1x256 .f32 :=
  k0_pay9 (k0_pay7 w q v)

variable (w : Vec F S256x256 .f32) (q v : Vec F S1x1024x256 .f32)

/-! ## Each later copy of the row computation is the first -/

theorem q1 : k0_pay16 (k0_pay10 q) (k0_pay13 (k0_pay2 w) q v) (k0_pay15 (k0_pay2 w) q v) (Scalar.ofBits .f32 0xFF800000#32) = rowQ w q v := rfl
theorem q2 : k0_pay24 (k0_pay18 q) (k0_pay22 (k0_pay2 w) q v) = rowQ w q v := rfl
theorem q3 : k0_pay30 (k0_pay2 w) (k0_pay26 q) (k0_pay27 q) (k0_pay28 v) (constant S1024x256 .f32 0x00000000#32) = rowQ w q v := rfl
theorem q4 : k0_pay37 (k0_pay36 (k0_pay2 w) q v) = rowQ w q v := rfl
theorem q5 : k0_pay45 (k0_pay39 q) (k0_pay42 (k0_pay2 w) q v) (k0_pay44 (k0_pay2 w) q v) = rowQ w q v := rfl
theorem q6 : k0_pay53 (k0_pay47 q) (k0_pay51 (k0_pay2 w) q v) = rowQ w q v := rfl
theorem q7 : k0_pay59 (k0_pay55 q) (k0_pay57 (k0_pay2 w) q v) = rowQ w q v := rfl

theorem v1 : k0_pay17 (k0_pay11 v) (k0_pay14 (k0_pay2 w) q v) = rowV w q v := rfl
theorem v2 : k0_pay25 (k0_pay19 v) (k0_pay21 (k0_pay2 w) q v) (k0_pay23 (k0_pay2 w) q v) (Scalar.ofBits .f32 0xFF800000#32) = rowV w q v := rfl
theorem v3 : k0_pay31 (k0_pay2 w) (k0_pay27 q) (k0_pay28 v) (constant S1024x256 .f32 0x00000000#32) = rowV w q v := rfl
theorem v4 : k0_pay38 (k0_pay35 (k0_pay2 w) q v) = rowV w q v := rfl
theorem v5 : k0_pay46 (k0_pay40 v) (k0_pay43 (k0_pay2 w) q v) = rowV w q v := rfl
theorem v6 : k0_pay54 (k0_pay48 v) (k0_pay50 (k0_pay2 w) q v) (k0_pay52 (k0_pay2 w) q v) = rowV w q v := rfl
theorem v7 : k0_pay1 (k0_pay60 (k0_pay56 v) (k0_pay57 (k0_pay2 w) q v)) = rowV w q v := rfl

end Cert.KernelIdeal.Row

end
-- ==== Proof.RowSoft.lean ====
/-
  Layout operations and reductions of matrices read at an index given by coordinates, and the softmax of a
  column [1024, 1] and of a row [1, 1024] as the kernel body writes it — the maximum folded from minus infinity,
  the shift, the exponentials, their sum, the quotient — read at an index: it is the specification's soft of the
  column's (row's) entries.
-/
import proofs.«147451_j44083544326830_2_alg».proof.Proof.RowFn
import proofs.«147451_j44083544326830_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowSoft

open Cert.KernelIdeal Cert.KernelIdeal.Gen Idealize.ShloMosaic Idealize.ShloMosaic.ValueIdx Cert.CoAtt

/-! ## Keepdims casts and broadcasts read at an index -/

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] array broadcast to [a, 1] reads its one element everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- A [1, 1] array broadcast to [1, b] reads its one element everywhere. -/
theorem broadcastTo_11_1b_apply {b : ℕ} (v : (⟨2, ![1, 1]⟩ : Shape).Idx → α) (h : (⟨2, ![1, 1]⟩ : Shape).Broadcasts ⟨2, ![1, b]⟩)
    (u : Fin 1) (c : Fin b) : broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction of a matrix along one axis read at an index -/

/-- A maximum reduction of a matrix along its columns reads, at row i, the fold of max over that row. -/
theorem maxReduce_axis1_apply {n0 n1 : ℕ} (x : FVec Ideal ⟨2, ![n0, n1]⟩ .f32) (acc : BitVec (FTy.bits .f32))
    (h : (⟨2, ![n0, n1]⟩ : Shape).Reduces [1] ⟨1, ![n0]⟩) (hφ : FKind.Formats .f32)
    (hacc : acc = FKind.maximumf.neutral .f32 hφ) (i : Fin n0) :
    multiReduction .maximumf [1] ⟨1, ![n0]⟩ x acc h hφ hacc (ix1 i)
      = (Finset.univ : Finset (Fin n1)).fold max (Ideal.ofBits .f32 acc) (fun j => x (ix2 i j)) := by
  refine (Ideal.multiReduction_maximumf_single x acc h hφ hacc (ix1 i)).trans ?_
  refine congrArg (fun f => (Finset.univ : Finset (Fin n1)).fold max (Ideal.ofBits .f32 acc) f) (funext fun k => ?_)
  exact congrArg x (funext fun c => Fin.ext (by match c with | ⟨0, _⟩ => rfl | ⟨1, _⟩ => rfl))

/-- A maximum reduction of a matrix along its rows reads, at column j, the fold of max over that column. -/
theorem maxReduce_axis0_apply {n0 n1 : ℕ} (x : FVec Ideal ⟨2, ![n0, n1]⟩ .f32) (acc : BitVec (FTy.bits .f32))
    (h : (⟨2, ![n0, n1]⟩ : Shape).Reduces [0] ⟨1, ![n1]⟩) (hφ : FKind.Formats .f32)
    (hacc : acc = FKind.maximumf.neutral .f32 hφ) (j : Fin n1) :
    multiReduction .maximumf [0] ⟨1, ![n1]⟩ x acc h hφ hacc (ix1 j)
      = (Finset.univ : Finset (Fin n0)).fold max (Ideal.ofBits .f32 acc) (fun i => x (ix2 i j)) := by
  refine (Ideal.multiReduction_maximumf_single x acc h hφ hacc (ix1 j)).trans ?_
  refine congrArg (fun f => (Finset.univ : Finset (Fin n0)).fold max (Ideal.ofBits .f32 acc) f) (funext fun k => ?_)
  exact congrArg x (funext fun c => Fin.ext (by match c with | ⟨0, _⟩ => rfl | ⟨1, _⟩ => rfl))

/-- A sum reduction of a matrix along its rows reads, at column j, the sum over that column. -/
theorem addReduce_axis0_apply {n0 n1 : ℕ} (x : FVec Ideal ⟨2, ![n0, n1]⟩ .f32) (acc : BitVec (FTy.bits .f32))
    (h : (⟨2, ![n0, n1]⟩ : Shape).Reduces [0] ⟨1, ![n1]⟩) (hφ : FKind.Formats .f32)
    (hacc : acc = FKind.add.neutral .f32 hφ) (j : Fin n1) :
    multiReduction .add [0] ⟨1, ![n1]⟩ x acc h hφ hacc (ix1 j) = ∑ i : Fin n0, x (ix2 i j) := by
  refine (Ideal.multiReduction_add_single x acc h hφ hacc (ix1 j)).trans ?_
  refine Finset.sum_congr rfl fun k _ => ?_
  exact congrArg x (funext fun c => Fin.ext (by match c with | ⟨0, _⟩ => rfl | ⟨1, _⟩ => rfl))

/-- A sum reduction of a matrix along its columns reads, at row i, the sum over that row. -/
theorem addReduce_axis1_apply {n0 n1 : ℕ} (x : FVec Ideal ⟨2, ![n0, n1]⟩ .f32) (acc : BitVec (FTy.bits .f32))
    (h : (⟨2, ![n0, n1]⟩ : Shape).Reduces [1] ⟨1, ![n0]⟩) (hφ : FKind.Formats .f32)
    (hacc : acc = FKind.add.neutral .f32 hφ) (i : Fin n0) :
    multiReduction .add [1] ⟨1, ![n0]⟩ x acc h hφ hacc (ix1 i) = ∑ j : Fin n1, x (ix2 i j) := by
  refine (Ideal.multiReduction_add_single x acc h hφ hacc (ix1 i)).trans ?_
  refine Finset.sum_congr rfl fun k _ => ?_
  exact congrArg x (funext fun c => Fin.ext (by match c with | ⟨0, _⟩ => rfl | ⟨1, _⟩ => rfl))

/-! ## The softmax of a column [1024, 1]: subtract the maximum, exponentiate, divide by the sum -/

/-- The column's maximum (never below minus infinity), spread back over the column. -/
def colMaxB (x : FVec Ideal S1024x1 .f32) : FVec Ideal S1024x1 .f32 :=
  broadcastTo S1024x1
    (shapeCast S1x1
      (maximumf (broadcast S1 (Scalar.ofBits (F := Ideal) .f32 0xFF800000#32))
        (multiReduction (F := Ideal) .maximumf [0] S1 x 0xFF800000#32 reduces_S1024x1_S1 (.inl rfl) rfl))
      shapeCasts_S1_S1x1)
    broadcasts_S1x1_S1024x1

/-- The column's sum, spread back over the column. -/
def colSumB (y : FVec Ideal S1024x1 .f32) : FVec Ideal S1024x1 .f32 :=
  broadcastTo S1024x1
    (shapeCast S1x1 (multiReduction (F := Ideal) .add [0] S1 y 0x00000000#32 reduces_S1024x1_S1 (.inl rfl) rfl) shapeCasts_S1_S1x1)
    broadcasts_S1x1_S1024x1

/-- The exponentials of the column's entries shifted by its maximum. -/
def colExp (x : FVec Ideal S1024x1 .f32) : FVec Ideal S1024x1 .f32 := exp (subf x (colMaxB x))

/-- The column's softmax. -/
def softCol (x : FVec Ideal S1024x1 .f32) : FVec Ideal S1024x1 .f32 := divf (colExp x) (colSumB (colExp x))

theorem colMaxB_apply (x : FVec Ideal S1024x1 .f32) (p : Fin 1024) :
    colMaxB x (ix2 p (0 : Fin 1)) = max ninf (vmax fun i' => x (ix2 i' (0 : Fin 1))) := by
  unfold colMaxB
  refine (broadcastTo_11_a1_apply _ _ p 0).trans ?_
  refine (shapeCast_a_1a_apply _ _ 0 0).trans ?_
  exact congrArg (max ninf) (maxReduce_axis0_apply x _ _ _ _ (0 : Fin 1))

theorem colExp_apply (x : FVec Ideal S1024x1 .f32) (p : Fin 1024) :
    colExp x (ix2 p (0 : Fin 1)) = Ideal.exp (x (ix2 p (0 : Fin 1)) - max ninf (vmax fun i' => x (ix2 i' (0 : Fin 1)))) := by
  show Ideal.exp (x (ix2 p (0 : Fin 1)) - colMaxB x (ix2 p (0 : Fin 1))) = _
  rw [colMaxB_apply]

theorem colSumB_apply (y : FVec Ideal S1024x1 .f32) (p : Fin 1024) :
    colSumB y (ix2 p (0 : Fin 1)) = ∑ k : Fin 1024, y (ix2 k (0 : Fin 1)) := by
  unfold colSumB
  refine (broadcastTo_11_a1_apply _ _ p 0).trans ?_
  refine (shapeCast_a_1a_apply _ _ 0 0).trans ?_
  exact addReduce_axis0_apply y _ _ _ _ (0 : Fin 1)

theorem softCol_apply (x : FVec Ideal S1024x1 .f32) (i : Fin 1024) :
    softCol x (ix2 i (0 : Fin 1)) = soft (fun i' => x (ix2 i' (0 : Fin 1))) i := by
  show Ideal.div (colExp x (ix2 i (0 : Fin 1))) (colSumB (colExp x) (ix2 i (0 : Fin 1))) = _
  rw [colSumB_apply, colExp_apply]
  unfold soft
  exact congrArg (Ideal.div _) (Finset.sum_congr rfl fun k _ => colExp_apply x k)

/-! ## The softmax of a row [1, 1024] -/

/-- The row's maximum (never below minus infinity), spread back over the row. -/
def rowMaxB (x : FVec Ideal S1x1024 .f32) : FVec Ideal S1x1024 .f32 :=
  broadcastTo S1x1024
    (shapeCast S1x1
      (maximumf (broadcast S1 (Scalar.ofBits (F := Ideal) .f32 0xFF800000#32))
        (multiReduction (F := Ideal) .maximumf [1] S1 x 0xFF800000#32 reduces_S1x1024_S1 (.inl rfl) rfl))
      shapeCasts_S1_S1x1)
    broadcasts_S1x1_S1x1024

/-- The row's sum, spread back over the row. -/
def rowSumB (y : FVec Ideal S1x1024 .f32) : FVec Ideal S1x1024 .f32 :=
  broadcastTo S1x1024
    (shapeCast S1x1 (multiReduction (F := Ideal) .add [1] S1 y 0x00000000#32 reduces_S1x1024_S1 (.inl rfl) rfl) shapeCasts_S1_S1x1)
    broadcasts_S1x1_S1x1024

/-- The exponentials of the row's entries shifted by its maximum. -/
def rowExp (x : FVec Ideal S1x1024 .f32) : FVec Ideal S1x1024 .f32 := exp (subf x (rowMaxB x))

/-- The row's softmax. -/
def softRow (x : FVec Ideal S1x1024 .f32) : FVec Ideal S1x1024 .f32 := divf (rowExp x) (rowSumB (rowExp x))

theorem rowMaxB_apply (x : FVec Ideal S1x1024 .f32) (p : Fin 1024) :
    rowMaxB x (ix2 (0 : Fin 1) p) = max ninf (vmax fun j' => x (ix2 (0 : Fin 1) j')) := by
  unfold rowMaxB
  refine (broadcastTo_11_1b_apply _ _ 0 p).trans ?_
  refine (shapeCast_a_1a_apply _ _ 0 0).trans ?_
  exact congrArg (max ninf) (maxReduce_axis1_apply x _ _ _ _ (0 : Fin 1))

theorem rowExp_apply (x : FVec Ideal S1x1024 .f32) (p : Fin 1024) :
    rowExp x (ix2 (0 : Fin 1) p) = Ideal.exp (x (ix2 (0 : Fin 1) p) - max ninf (vmax fun j' => x (ix2 (0 : Fin 1) j'))) := by
  show Ideal.exp (x (ix2 (0 : Fin 1) p) - rowMaxB x (ix2 (0 : Fin 1) p)) = _
  rw [rowMaxB_apply]

theorem rowSumB_apply (y : FVec Ideal S1x1024 .f32) (p : Fin 1024) :
    rowSumB y (ix2 (0 : Fin 1) p) = ∑ k : Fin 1024, y (ix2 (0 : Fin 1) k) := by
  unfold rowSumB
  refine (broadcastTo_11_1b_apply _ _ 0 p).trans ?_
  refine (shapeCast_a_1a_apply _ _ 0 0).trans ?_
  exact addReduce_axis1_apply y _ _ _ _ (0 : Fin 1)

theorem softRow_apply (x : FVec Ideal S1x1024 .f32) (j : Fin 1024) :
    softRow x (ix2 (0 : Fin 1) j) = soft (fun j' => x (ix2 (0 : Fin 1) j')) j := by
  show Ideal.div (rowExp x (ix2 (0 : Fin 1) j)) (rowSumB (rowExp x) (ix2 (0 : Fin 1) j)) = _
  rw [rowSumB_apply, rowExp_apply]
  unfold soft
  exact congrArg (Ideal.div _) (Finset.sum_congr rfl fun k _ => rowExp_apply x k)

end Cert.KernelIdeal.RowSoft

end
-- ==== Proof.RowScore.lean ====
/-
  The kernel body's three matrix products read at an index as sums over the contraction coordinate, and its
  squashed score matrix read at (i, j): the specification's score of query position i against value position j.
-/
import proofs.«147451_j44083544326830_2_alg».proof.Proof.RowFn
import proofs.«147451_j44083544326830_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowScore

open Cert.KernelIdeal Cert.KernelIdeal.Gen Idealize.ShloMosaic Idealize.ShloMosaic.ValueIdx Cert.CoAtt

/-! ## The three matrix products read at an index -/

theorem qw_lhs_non (j : S1024x256.Idx) (q : dot_S1024x256_S256x256_S1024x256_1_0_0_1_n_n.contr.Idx) :
    (dot_S1024x256_S256x256_S1024x256_1_0_0_1_n_n.lhsIdx j q 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem qw_lhs_con (j : S1024x256.Idx) (q : dot_S1024x256_S256x256_S1024x256_1_0_0_1_n_n.contr.Idx) :
    (dot_S1024x256_S256x256_S1024x256_1_0_0_1_n_n.lhsIdx j q 1).val = (q ⟨0, by decide⟩).val :=
  dot_S1024x256_S256x256_S1024x256_1_0_0_1_n_n.lhsIdx_val_of_single rfl j q
theorem qw_rhs_non (j : S1024x256.Idx) (q : dot_S1024x256_S256x256_S1024x256_1_0_0_1_n_n.contr.Idx) :
    (dot_S1024x256_S256x256_S1024x256_1_0_0_1_n_n.rhsIdx j q 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem qw_rhs_con (j : S1024x256.Idx) (q : dot_S1024x256_S256x256_S1024x256_1_0_0_1_n_n.contr.Idx) :
    (dot_S1024x256_S256x256_S1024x256_1_0_0_1_n_n.rhsIdx j q 0).val = (q ⟨0, by decide⟩).val :=
  dot_S1024x256_S256x256_S1024x256_1_0_0_1_n_n.rhsIdx_val_of_single rfl j q

theorem matmul_qw_apply (a : FVec Ideal S1024x256 .bf16) (b : FVec Ideal S256x256 .bf16) (i : Fin 1024) (e : Fin 256) :
    matmul dot_S1024x256_S256x256_S1024x256_1_0_0_1_n_n none a b (constant (F := Ideal) S1024x256 .f32 0x00000000#32) (ix2 i e)
      = ∑ k : Fin 256, a (ix2 i k) * b (ix2 k e) := by
  refine (Ideal.matmul_constant_zero_apply dot_S1024x256_S256x256_S1024x256_1_0_0_1_n_n none a b (ix2 i e)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 i e) ((contrEquiv1 dot_S1024x256_S256x256_S1024x256_1_0_0_1_n_n 256 rfl rfl).symm k) = ix2 i k :=
    funext fun c => Fin.ext (by
      match c with
      | ⟨0, _⟩ => exact qw_lhs_non _ _
      | ⟨1, _⟩ => exact (qw_lhs_con _ _).trans hk)
  have er : dot_S1024x256_S256x256_S1024x256_1_0_0_1_n_n.rhsIdx (ix2 i e) ((contrEquiv1 dot_S1024x256_S256x256_S1024x256_1_0_0_1_n_n 256 rfl rfl).symm k) = ix2 k e :=
    funext fun c => Fin.ext (by
      match c with
      | ⟨0, _⟩ => exact (qw_rhs_con _ _).trans hk
      | ⟨1, _⟩ => exact qw_rhs_non _ _)
  rw [el, er]

theorem sc_lhs_non (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem sc_lhs_con (j : S1024x1024.Idx) (q : dot_S1024x256_S1024x256_S1024x1024_1_1_0_0_n_n.contr.Idx) :
    (dot_S1024x256_S1024x256_S1024x1024_1_1_0_0_n_n.lhsIdx j q 1).val = (q ⟨0, by decide⟩).val :=
  dot_S1024x256_S1024x256_S1024x1024_1_1_0_0_n_n.lhsIdx_val_of_single rfl j q
theorem sc_rhs_non (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem sc_rhs_con (j : S1024x1024.Idx) (q : dot_S1024x256_S1024x256_S1024x1024_1_1_0_0_n_n.contr.Idx) :
    (dot_S1024x256_S1024x256_S1024x1024_1_1_0_0_n_n.rhsIdx j q 1).val = (q ⟨0, by decide⟩).val :=
  dot_S1024x256_S1024x256_S1024x1024_1_1_0_0_n_n.rhsIdx_val_of_single rfl j q

theorem matmul_score_apply (a : FVec Ideal S1024x256 .bf16) (b : FVec Ideal S1024x256 .bf16) (i j : Fin 1024) :
    matmul dot_S1024x256_S1024x256_S1024x1024_1_1_0_0_n_n none a b (constant (F := Ideal) S1024x1024 .f32 0x00000000#32) (ix2 i j)
      = ∑ k : Fin 256, a (ix2 i k) * b (ix2 j k) := by
  refine (Ideal.matmul_constant_zero_apply dot_S1024x256_S1024x256_S1024x1024_1_1_0_0_n_n none a b (ix2 i j)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 i j) ((contrEquiv1 dot_S1024x256_S1024x256_S1024x1024_1_1_0_0_n_n 256 rfl rfl).symm k) = ix2 i k :=
    funext fun c => Fin.ext (by
      match c with
      | ⟨0, _⟩ => exact sc_lhs_non _ _
      | ⟨1, _⟩ => exact (sc_lhs_con _ _).trans hk)
  have er : dot_S1024x256_S1024x256_S1024x1024_1_1_0_0_n_n.rhsIdx (ix2 i j) ((contrEquiv1 dot_S1024x256_S1024x256_S1024x1024_1_1_0_0_n_n 256 rfl rfl).symm k) = ix2 j k :=
    funext fun c => Fin.ext (by
      match c with
      | ⟨0, _⟩ => exact sc_rhs_non _ _
      | ⟨1, _⟩ => exact (sc_rhs_con _ _).trans hk)
  rw [el, er]

theorem att_lhs_non (j : S1x256.Idx) (q : dot_S1x1024_S1024x256_S1x256_1_0_0_1_n_n.contr.Idx) :
    (dot_S1x1024_S1024x256_S1x256_1_0_0_1_n_n.lhsIdx j q 0).val = (j 0).val := by
  unfold DotDims.lhsIdx
  rw [dif_neg (show ¬(0 : Fin S1x1024.rank) ∈ dot_S1x1024_S1024x256_S1x256_1_0_0_1_n_n.lhsBatch by decide), dif_pos (show (0 : Fin S1x1024.rank) ∈ dot_S1x1024_S1024x256_S1x256_1_0_0_1_n_n.lhsNonContracting by decide)]
  rfl
theorem att_lhs_con (j : S1x256.Idx) (q : dot_S1x1024_S1024x256_S1x256_1_0_0_1_n_n.contr.Idx) :
    (dot_S1x1024_S1024x256_S1x256_1_0_0_1_n_n.lhsIdx j q 1).val = (q ⟨0, by decide⟩).val :=
  dot_S1x1024_S1024x256_S1x256_1_0_0_1_n_n.lhsIdx_val_of_single rfl j q
theorem att_rhs_non (j : S1x256.Idx) (q : dot_S1x1024_S1024x256_S1x256_1_0_0_1_n_n.contr.Idx) :
    (dot_S1x1024_S1024x256_S1x256_1_0_0_1_n_n.rhsIdx j q 1).val = (j 1).val := by
  unfold DotDims.rhsIdx
  rw [dif_neg (show ¬(1 : Fin S1024x256.rank) ∈ dot_S1x1024_S1024x256_S1x256_1_0_0_1_n_n.rhsBatch by decide), dif_pos (show (1 : Fin S1024x256.rank) ∈ dot_S1x1024_S1024x256_S1x256_1_0_0_1_n_n.rhsNonContracting by decide)]
  rfl
theorem att_rhs_con (j : S1x256.Idx) (q : dot_S1x1024_S1024x256_S1x256_1_0_0_1_n_n.contr.Idx) :
    (dot_S1x1024_S1024x256_S1x256_1_0_0_1_n_n.rhsIdx j q 0).val = (q ⟨0, by decide⟩).val :=
  dot_S1x1024_S1024x256_S1x256_1_0_0_1_n_n.rhsIdx_val_of_single rfl j q

theorem matmul_att_apply (a : FVec Ideal S1x1024 .bf16) (b : FVec Ideal S1024x256 .bf16) (u : Fin 1) (d : Fin 256) :
    matmul dot_S1x1024_S1024x256_S1x256_1_0_0_1_n_n none a b (constant (F := Ideal) S1x256 .f32 0x00000000#32) (ix2 u d)
      = ∑ k : Fin 1024, a (ix2 u k) * b (ix2 k d) := by
  refine (Ideal.matmul_constant_zero_apply dot_S1x1024_S1024x256_S1x256_1_0_0_1_n_n none a b (ix2 u d)).trans ?_
  rw [← Equiv.sum_comp (contrEquiv1 dot_S1x1024_S1024x256_S1x256_1_0_0_1_n_n 1024 rfl rfl).symm]
  refine Finset.sum_congr rfl fun k _ => ?_
  have hk := contrEquiv1_symm_val dot_S1x1024_S1024x256_S1x256_1_0_0_1_n_n 1024 rfl rfl k
  have el : dot_S1x1024_S1024x256_S1x256_1_0_0_1_n_n.lhsIdx (ix2 u d) ((contrEquiv1 dot_S1x1024_S1024x256_S1x256_1_0_0_1_n_n 1024 rfl rfl).symm k) = ix2 u k :=
    funext fun c => Fin.ext (by
      match c with
      | ⟨0, _⟩ => exact att_lhs_non _ _
      | ⟨1, _⟩ => exact (att_lhs_con _ _).trans hk)
  have er : dot_S1x1024_S1024x256_S1x256_1_0_0_1_n_n.rhsIdx (ix2 u d) ((contrEquiv1 dot_S1x1024_S1024x256_S1x256_1_0_0_1_n_n 1024 rfl rfl).symm k) = ix2 k d :=
    funext fun c => Fin.ext (by
      match c with
      | ⟨0, _⟩ => exact (att_rhs_con _ _).trans hk
      | ⟨1, _⟩ => exact att_rhs_non _ _)
  rw [el, er]

/-! ## The score matrix read at an index -/

/-- Entry (i, j) of the kernel's squashed score matrix is the specification's score of query position i against value position j. -/
theorem score_apply (w : Vec Ideal S256x256 .f32) (q v : Vec Ideal S1x1024x256 .f32) (i j : Fin 1024) :
    k0_pay5 (F := Ideal) w q v (ix2 i j)
      = score (fun i k => q (ix3 (0 : Fin 1) i k)) (fun j e => v (ix3 (0 : Fin 1) j e)) (fun k e => w (ix2 k e)) i j := by
  unfold k0_pay5 score
  refine congrArg Ideal.tanh ?_
  refine (matmul_score_apply _ _ i j).trans ?_
  refine Finset.sum_congr rfl fun e _ => ?_
  refine congrArg₂ (· * ·) ?_ ?_
  · refine (matmul_qw_apply _ _ i e).trans ?_
    unfold proj
    refine Finset.sum_congr rfl fun k _ => ?_
    refine congrArg₂ (· * ·) ?_ rfl
    exact shapeCast_1ab_ab_apply q _ i k
  · exact shapeCast_1ab_ab_apply v _ j e

end Cert.KernelIdeal.RowScore

end
-- ==== Proof.RowValue.lean ====
/-
  The two row functions of the kernel body read at an index, over the extended reals: entry d of the
  attended-query row is the specification's attQ of the row's query, value and weight blocks, and entry d of the
  attended-value row its attV.
-/
import proofs.«147451_j44083544326830_2_alg».proof.Proof.RowFn
import proofs.«147451_j44083544326830_2_alg».proof.Proof.Spec
import proofs.«147451_j44083544326830_2_alg».proof.Proof.RowSoft
import proofs.«147451_j44083544326830_2_alg».proof.Proof.RowScore
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx
open Cert.CoAtt Cert.KernelIdeal.RowSoft Cert.KernelIdeal.RowScore

/-! ## The maxima of the score matrix along each axis, in keepdims form -/

/-- The row maxima of a matrix as a column: entry (i, 0) is the maximum over j of the matrix at (i, j). -/
theorem rowMaxCol_apply (x : FVec Ideal S1024x1024 .f32) (i : Fin 1024) :
    shapeCast S1024x1
        (multiReduction (F := Ideal) .maximumf [1] S1024 x 0xFF800000#32 reduces_S1024x1024_S1024_2 (.inl rfl) rfl)
        shapeCasts_S1024_S1024x1 (ix2 i (0 : Fin 1))
      = vmax fun j => x (ix2 i j) := by
  refine (shapeCast_a_a1_apply _ _ i 0).trans ?_
  exact maxReduce_axis1_apply x _ _ _ _ i

/-- The column maxima of a matrix as a row: entry (0, j) is the maximum over i of the matrix at (i, j). -/
theorem colMaxRow_apply (x : FVec Ideal S1024x1024 .f32) (j : Fin 1024) :
    shapeCast S1x1024
        (multiReduction (F := Ideal) .maximumf [0] S1024 x 0xFF800000#32 reduces_S1024x1024_S1024 (.inl rfl) rfl)
        shapeCasts_S1024_S1x1024 (ix2 (0 : Fin 1) j)
      = vmax fun i => x (ix2 i j) := by
  refine (shapeCast_a_1a_apply _ _ 0 j).trans ?_
  exact maxReduce_axis0_apply x _ _ _ _ j

/-! ## The two softmax vectors -/

/-- The query-side weights are the column softmax of the score matrix's row maxima. -/
theorem pay6_eq (w : Vec Ideal S256x256 .f32) (q v : Vec Ideal S1x1024x256 .f32) :
    k0_pay6 (F := Ideal) w q v
      = softCol (shapeCast S1024x1
          (multiReduction (F := Ideal) .maximumf [1] S1024 (k0_pay5 (F := Ideal) w q v) 0xFF800000#32 reduces_S1024x1024_S1024_2 (.inl rfl) rfl)
          shapeCasts_S1024_S1024x1) := rfl

/-- Entry (i, 0) of the query-side weights: the softmax, over query positions, of each position's best score. -/
theorem distQ_apply (w : Vec Ideal S256x256 .f32) (q v : Vec Ideal S1x1024x256 .f32) (i : Fin 1024) :
    k0_pay6 (F := Ideal) w q v (ix2 i (0 : Fin 1))
      = soft (fun i' => vmax fun j => score (fun i k => q (ix3 (0 : Fin 1) i k)) (fun j e => v (ix3 (0 : Fin 1) j e)) (fun k e => w (ix2 k e)) i' j) i := by
  refine (congrFun (pay6_eq w q v) (ix2 i (0 : Fin 1))).trans ?_
  refine (softCol_apply _ i).trans ?_
  refine congrArg (fun f => soft f i) (funext fun i' => ?_)
  refine (rowMaxCol_apply _ i').trans ?_
  exact congrArg vmax (funext fun j => score_apply w q v i' j)

/-- The value-side product: the row softmax of the score matrix's column maxima, times the value rows. -/
theorem pay7_eq (w : Vec Ideal S256x256 .f32) (q v : Vec Ideal S1x1024x256 .f32) :
    k0_pay7 (F := Ideal) w q v
      = matmul dot_S1x1024_S1024x256_S1x256_1_0_0_1_n_n none
          (truncf .bf16 (softRow (shapeCast S1x1024
            (multiReduction (F := Ideal) .maximumf [0] S1024 (k0_pay5 (F := Ideal) w q v) 0xFF800000#32 reduces_S1024x1024_S1024 (.inl rfl) rfl)
            shapeCasts_S1024_S1x1024)) bitsLt_bf16_f32)
          (k0_pay4 (F := Ideal) v) (constant (F := Ideal) S1x256 .f32 0x00000000#32) := rfl

/-! ## The two rows -/

/-- The weighted sum of rows: entry (0, d) of the column c spread over the columns, times the matrix m, summed over rows. -/
theorem pay8_apply (m : FVec Ideal S1024x256 .f32) (c : FVec Ideal S1024x1 .f32) (d : Fin 256) :
    k0_pay8 (F := Ideal) m c (ix2 (0 : Fin 1) d) = ∑ i : Fin 1024, c (ix2 i (0 : Fin 1)) * m (ix2 i d) := by
  unfold k0_pay8
  refine (shapeCast_a_1a_apply _ _ 0 d).trans ?_
  refine (shapeCast_1a_a_apply _ _ d).trans ?_
  refine (shapeCast_a_1a_apply _ _ 0 d).trans ?_
  refine (addReduce_axis0_apply _ _ _ _ _ d).trans ?_
  refine Finset.sum_congr rfl fun i _ => ?_
  refine (mulf_apply _ _ (ix2 i d)).trans ?_
  exact congrArg (· * m (ix2 i d)) (broadcastTo_a1_ab_apply c _ i d)

/-- Casting a [1, 256] row to [256] and back reads the row. -/
theorem pay9_apply (r : FVec Ideal S1x256 .f32) (d : Fin 256) :
    k0_pay9 (F := Ideal) r (ix2 (0 : Fin 1) d) = r (ix2 (0 : Fin 1) d) := by
  unfold k0_pay9
  refine (shapeCast_a_1a_apply _ _ 0 d).trans ?_
  exact shapeCast_1a_a_apply _ _ d

/-- Entry (0, j) of the value-side weights: the softmax, over value positions, of each position's best score. -/
theorem distV_apply (w : Vec Ideal S256x256 .f32) (q v : Vec Ideal S1x1024x256 .f32) (j : Fin 1024) :
    softRow (shapeCast S1x1024
        (multiReduction (F := Ideal) .maximumf [0] S1024 (k0_pay5 (F := Ideal) w q v) 0xFF800000#32 reduces_S1024x1024_S1024 (.inl rfl) rfl)
        shapeCasts_S1024_S1x1024) (ix2 (0 : Fin 1) j)
      = soft (fun j' => vmax fun i => score (fun i k => q (ix3 (0 : Fin 1) i k)) (fun j e => v (ix3 (0 : Fin 1) j e)) (fun k e => w (ix2 k e)) i j') j := by
  refine (softRow_apply _ j).trans ?_
  refine congrArg (fun f => soft f j) (funext fun j' => ?_)
  refine (colMaxRow_apply _ j').trans ?_
  exact congrArg vmax (funext fun i => score_apply w q v i j')

/-- Entry (0, d) of the value-side product: the value rows weighted by the value-side weights, summed. -/
theorem pay7_apply (w : Vec Ideal S256x256 .f32) (q v : Vec Ideal S1x1024x256 .f32) (d : Fin 256) :
    k0_pay7 (F := Ideal) w q v (ix2 (0 : Fin 1) d)
      = attV (fun i k => q (ix3 (0 : Fin 1) i k)) (fun j e => v (ix3 (0 : Fin 1) j e)) (fun k e => w (ix2 k e)) d := by
  refine (congrFun (pay7_eq w q v) (ix2 (0 : Fin 1) d)).trans ?_
  refine (matmul_att_apply _ _ 0 d).trans ?_
  unfold attV
  refine Finset.sum_congr rfl fun j _ => ?_
  exact congrArg₂ (· * ·) (distV_apply w q v j) (shapeCast_1ab_ab_apply v _ j d)

theorem rowQ_apply (w : Vec Ideal S256x256 .f32) (q v : Vec Ideal S1x1024x256 .f32) (d : Fin 256) :
    Cert.KernelIdeal.Row.rowQ (F := Ideal) w q v (ix2 (0 : Fin 1) d)
      = Cert.CoAtt.attQ (fun i k => q (ix3 (0 : Fin 1) i k)) (fun j e => v (ix3 (0 : Fin 1) j e)) (fun k e => w (ix2 k e)) d := by
  unfold Row.rowQ
  refine (pay8_apply _ _ d).trans ?_
  unfold attQ
  refine Finset.sum_congr rfl fun i _ => ?_
  exact congrArg₂ (· * ·) (distQ_apply w q v i) (shapeCast_1ab_ab_apply q _ i d)

theorem rowV_apply (w : Vec Ideal S256x256 .f32) (q v : Vec Ideal S1x1024x256 .f32) (d : Fin 256) :
    Cert.KernelIdeal.Row.rowV (F := Ideal) w q v (ix2 (0 : Fin 1) d)
      = Cert.CoAtt.attV (fun i k => q (ix3 (0 : Fin 1) i k)) (fun j e => v (ix3 (0 : Fin 1) j e)) (fun k e => w (ix2 k e)) d := by
  unfold Row.rowV
  refine (pay9_apply _ d).trans ?_
  exact pay7_apply w q v d

end Cert.KernelIdeal.RowValue

end
-- ==== Proof.BlockRows.lean ====
/-
  An output block of the kernel as ONE function of the block index. The body stores each of the block's eight rows
  separately; row b's store is the row function (RowFn) of row b of the query block, row b of the value block and the
  weight block. Read at an index (RowValue), entry (b, d) of the attended-query block is therefore the specification's
  attQ of batch row b of the blocks, and likewise attV for the attended-value block: the eight stores are eight row
  blocks of one function, and the canon of such pieces is that function wherever a piece covers.
-/
import proofs.«147451_j44083544326830_2_alg».proof.Proof.Gen.KernelIdeal.Frame
import proofs.«147451_j44083544326830_2_alg».proof.Proof.RowFn
import proofs.«147451_j44083544326830_2_alg».proof.Proof.RowValue
import proofs.«147451_j44083544326830_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx Idealize.SL.Sem
open Cert.CoAtt

/-! ## The eight stores of each output block are eight applications of one row function -/

theorem out3_rows {F : FTy → Type} [FloatOps F] (x0 x1 : Vec F S8x1024x256 .f32) (x2 : Vec F S256x256 .f32) :
    out0_3 x0 x1 x2 = View.canon [⟨r0_16, Row.rowQ (View.ld x2 r0_0) (View.ld x0 r0_15) (View.ld x1 r0_15)⟩,
    ⟨r0_14, Row.rowQ (View.ld x2 r0_0) (View.ld x0 r0_13) (View.ld x1 r0_13)⟩,
    ⟨r0_12, Row.rowQ (View.ld x2 r0_0) (View.ld x0 r0_11) (View.ld x1 r0_11)⟩,
    ⟨r0_10, Row.rowQ (View.ld x2 r0_0) (View.ld x0 r0_9) (View.ld x1 r0_9)⟩,
    ⟨r0_8, Row.rowQ (View.ld x2 r0_0) (View.ld x0 r0_7) (View.ld x1 r0_7)⟩,
    ⟨r0_6, Row.rowQ (View.ld x2 r0_0) (View.ld x0 r0_5) (View.ld x1 r0_5)⟩,
    ⟨r0_4, Row.rowQ (View.ld x2 r0_0) (View.ld x0 r0_3) (View.ld x1 r0_3)⟩,
    ⟨r0_2, Row.rowQ (View.ld x2 r0_0) (View.ld x0 r0_1) (View.ld x1 r0_1)⟩] := by
  unfold out0_3
  rw [Row.q7, Row.q6, Row.q5, Row.q4, Row.q3, Row.q2, Row.q1]
  rfl

theorem out4_rows {F : FTy → Type} [FloatOps F] (x0 x1 : Vec F S8x1024x256 .f32) (x2 : Vec F S256x256 .f32) :
    out0_4 x0 x1 x2 = View.canon [⟨r0_16, Row.rowV (View.ld x2 r0_0) (View.ld x0 r0_15) (View.ld x1 r0_15)⟩,
    ⟨r0_14, Row.rowV (View.ld x2 r0_0) (View.ld x0 r0_13) (View.ld x1 r0_13)⟩,
    ⟨r0_12, Row.rowV (View.ld x2 r0_0) (View.ld x0 r0_11) (View.ld x1 r0_11)⟩,
    ⟨r0_10, Row.rowV (View.ld x2 r0_0) (View.ld x0 r0_9) (View.ld x1 r0_9)⟩,
    ⟨r0_8, Row.rowV (View.ld x2 r0_0) (View.ld x0 r0_7) (View.ld x1 r0_7)⟩,
    ⟨r0_6, Row.rowV (View.ld x2 r0_0) (View.ld x0 r0_5) (View.ld x1 r0_5)⟩,
    ⟨r0_4, Row.rowV (View.ld x2 r0_0) (View.ld x0 r0_3) (View.ld x1 r0_3)⟩,
    ⟨r0_2, Row.rowV (View.ld x2 r0_0) (View.ld x0 r0_1) (View.ld x1 r0_1)⟩] := by
  unfold out0_4
  rw [Row.v7, Row.v6, Row.v5, Row.v4, Row.v3, Row.v2, Row.v1]
  rfl

/-! ## Row b of a block, read through its rectangle -/

/-- Batch row b of an [8, 1024, 256] block, as a function of its two inner coordinates. -/
def brow (X : Vec Ideal S8x1024x256 .f32) (b : Fin 8) : Fin 1024 → Fin 256 → EReal := fun i k => X (ix3 b i k)

/-- The attended-query block: entry (b, d) is attQ of batch row b. -/
def blkQ (x0 x1 : Vec Ideal S8x1024x256 .f32) (x2 : Vec Ideal S256x256 .f32) : Vec Ideal S8x256 .f32 :=
  fun y => attQ (brow x0 ⟨(y 0).val, idx2_lt0 y⟩) (brow x1 ⟨(y 0).val, idx2_lt0 y⟩) (mat x2) ⟨(y 1).val, idx2_lt1 y⟩

/-- The attended-value block: entry (b, d) is attV of batch row b. -/
def blkV (x0 x1 : Vec Ideal S8x1024x256 .f32) (x2 : Vec Ideal S256x256 .f32) : Vec Ideal S8x256 .f32 :=
  fun y => attV (brow x0 ⟨(y 0).val, idx2_lt0 y⟩) (brow x1 ⟨(y 0).val, idx2_lt0 y⟩) (mat x2) ⟨(y 1).val, idx2_lt1 y⟩

/-- A load of row b of a block through the unit rectangle at (b, 0, 0) reads that row. -/
theorem ld_row (X : Vec Ideal S8x1024x256 .f32) (b : Nat) (hb : b < 8)
    (inb : ∀ a, (![b, 0, 0] : Fin 3 → Nat) a + S1x1024x256.size a ≤ S8x1024x256.size a) (i : Fin 1024) (k : Fin 256) :
    View.ld X (Rect.unit (s := S8x1024x256) ![b, 0, 0] S1x1024x256.size inb) (ix3 (0 : Fin 1) i k) = X (ix3 (⟨b, hb⟩ : Fin 8) i k) :=
  congrArg X (funext fun a => Fin.ext (by
    match a with
    | ⟨0, _⟩ => show b + 1 * 0 = b; omega
    | ⟨1, _⟩ => show 0 + 1 * i.val = i.val; omega
    | ⟨2, _⟩ => show 0 + 1 * k.val = k.val; omega))

/-- A load of the whole weight block reads it. -/
theorem ld_w (X : Vec Ideal S256x256 .f32) (k e : Fin 256) : View.ld X r0_0 (ix2 k e) = X (ix2 k e) :=
  congrArg X (funext fun a => Fin.ext (by
    match a with
    | ⟨0, _⟩ => show 0 + 1 * k.val = k.val; omega
    | ⟨1, _⟩ => show 0 + 1 * e.val = e.val; omega))

/-- Row b's attended-query store is row b of `blkQ`. -/
theorem pieceQ (x0 x1 : Vec Ideal S8x1024x256 .f32) (x2 : Vec Ideal S256x256 .f32) (b : Nat) (hb : b < 8)
    (inbq : ∀ a, (![b, 0, 0] : Fin 3 → Nat) a + S1x1024x256.size a ≤ S8x1024x256.size a)
    (inbo : ∀ a, (![b, 0] : Fin 2 → Nat) a + S1x256.size a ≤ S8x256.size a) (x : S1x256.Idx) :
    Row.rowQ (F := Ideal) (View.ld x2 r0_0) (View.ld x0 (Rect.unit (s := S8x1024x256) ![b, 0, 0] S1x1024x256.size inbq))
        (View.ld x1 (Rect.unit (s := S8x1024x256) ![b, 0, 0] S1x1024x256.size inbq)) x
      = blkQ x0 x1 x2 ((Rect.unit (s := S8x256) ![b, 0] S1x256.size inbo).emb x) := by
  obtain ⟨z, d, rfl⟩ : ∃ (z : Fin 1) (d : Fin 256), x = ix2 z d := ⟨x 0, x 1, eq_ix2 x⟩
  obtain rfl : z = 0 := Subsingleton.elim _ _
  refine (Cert.KernelIdeal.RowValue.rowQ_apply _ _ _ d).trans ?_
  have hq : (fun i k => View.ld x0 (Rect.unit (s := S8x1024x256) ![b, 0, 0] S1x1024x256.size inbq) (ix3 (0 : Fin 1) i k)) = brow x0 ⟨b, hb⟩ :=
    funext fun i => funext fun k => ld_row x0 b hb inbq i k
  have hv : (fun j e => View.ld x1 (Rect.unit (s := S8x1024x256) ![b, 0, 0] S1x1024x256.size inbq) (ix3 (0 : Fin 1) j e)) = brow x1 ⟨b, hb⟩ :=
    funext fun i => funext fun k => ld_row x1 b hb inbq i k
  have hw : (fun k e => View.ld x2 r0_0 (ix2 k e)) = mat x2 := funext fun k => funext fun e => ld_w x2 k e
  rw [hq, hv, hw]
  unfold blkQ
  have hB : (⟨(((Rect.unit (s := S8x256) ![b, 0] S1x256.size inbo).emb (ix2 (0 : Fin 1) d)) 0).val, idx2_lt0 _⟩ : Fin 8) = ⟨b, hb⟩ :=
    Fin.ext (by show b + 1 * 0 = b; omega)
  have hD : (⟨(((Rect.unit (s := S8x256) ![b, 0] S1x256.size inbo).emb (ix2 (0 : Fin 1) d)) 1).val, idx2_lt1 _⟩ : Fin 256) = d :=
    Fin.ext (by show 0 + 1 * d.val = d.val; omega)
  rw [hB, hD]

/-- Row b's attended-value store is row b of `blkV`. -/
theorem pieceV (x0 x1 : Vec Ideal S8x1024x256 .f32) (x2 : Vec Ideal S256x256 .f32) (b : Nat) (hb : b < 8)
    (inbq : ∀ a, (![b, 0, 0] : Fin 3 → Nat) a + S1x1024x256.size a ≤ S8x1024x256.size a)
    (inbo : ∀ a, (![b, 0] : Fin 2 → Nat) a + S1x256.size a ≤ S8x256.size a) (x : S1x256.Idx) :
    Row.rowV (F := Ideal) (View.ld x2 r0_0) (View.ld x0 (Rect.unit (s := S8x1024x256) ![b, 0, 0] S1x1024x256.size inbq))
        (View.ld x1 (Rect.unit (s := S8x1024x256) ![b, 0, 0] S1x1024x256.size inbq)) x
      = blkV x0 x1 x2 ((Rect.unit (s := S8x256) ![b, 0] S1x256.size inbo).emb x) := by
  obtain ⟨z, d, rfl⟩ : ∃ (z : Fin 1) (d : Fin 256), x = ix2 z d := ⟨x 0, x 1, eq_ix2 x⟩
  obtain rfl : z = 0 := Subsingleton.elim _ _
  refine (Cert.KernelIdeal.RowValue.rowV_apply _ _ _ d).trans ?_
  have hq : (fun i k => View.ld x0 (Rect.unit (s := S8x1024x256) ![b, 0, 0] S1x1024x256.size inbq) (ix3 (0 : Fin 1) i k)) = brow x0 ⟨b, hb⟩ :=
    funext fun i => funext fun k => ld_row x0 b hb inbq i k
  have hv : (fun j e => View.ld x1 (Rect.unit (s := S8x1024x256) ![b, 0, 0] S1x1024x256.size inbq) (ix3 (0 : Fin 1) j e)) = brow x1 ⟨b, hb⟩ :=
    funext fun i => funext fun k => ld_row x1 b hb inbq i k
  have hw : (fun k e => View.ld x2 r0_0 (ix2 k e)) = mat x2 := funext fun k => funext fun e => ld_w x2 k e
  rw [hq, hv, hw]
  unfold blkV
  have hB : (⟨(((Rect.unit (s := S8x256) ![b, 0] S1x256.size inbo).emb (ix2 (0 : Fin 1) d)) 0).val, idx2_lt0 _⟩ : Fin 8) = ⟨b, hb⟩ :=
    Fin.ext (by show b + 1 * 0 = b; omega)
  have hD : (⟨(((Rect.unit (s := S8x256) ![b, 0] S1x256.size inbo).emb (ix2 (0 : Fin 1) d)) 1).val, idx2_lt1 _⟩ : Fin 256) = d :=
    Fin.ext (by show 0 + 1 * d.val = d.val; omega)
  rw [hB, hD]

/-! ## Each output block is one function of the block index -/

/-- The attended-query block the body leaves is `blkQ` of the input blocks. -/
theorem out3_eq (x0 x1 : Vec Ideal S8x1024x256 .f32) (x2 : Vec Ideal S256x256 .f32) :
    out0_3 (F := Ideal) x0 x1 x2 = blkQ x0 x1 x2 := by
  funext y
  rw [out3_rows]
  refine View.canon_apply_of_pieces (blkQ x0 x1 x2) _ ?_ y (cover0_3 _ _ _ _ _ _ _ _ y)
  intro p hp
  simp only [List.mem_cons, List.not_mem_nil, or_false] at hp
  rcases hp with rfl | rfl | rfl | rfl | rfl | rfl | rfl | rfl
  · exact fun x => pieceQ x0 x1 x2 7 (by omega) inb_S8x1024x256_S1x1024x256_7_0_0 inb_S8x256_S1x256_7_0 x
  · exact fun x => pieceQ x0 x1 x2 6 (by omega) inb_S8x1024x256_S1x1024x256_6_0_0 inb_S8x256_S1x256_6_0 x
  · exact fun x => pieceQ x0 x1 x2 5 (by omega) inb_S8x1024x256_S1x1024x256_5_0_0 inb_S8x256_S1x256_5_0 x
  · exact fun x => pieceQ x0 x1 x2 4 (by omega) inb_S8x1024x256_S1x1024x256_4_0_0 inb_S8x256_S1x256_4_0 x
  · exact fun x => pieceQ x0 x1 x2 3 (by omega) inb_S8x1024x256_S1x1024x256_3_0_0 inb_S8x256_S1x256_3_0 x
  · exact fun x => pieceQ x0 x1 x2 2 (by omega) inb_S8x1024x256_S1x1024x256_2_0_0 inb_S8x256_S1x256_2_0 x
  · exact fun x => pieceQ x0 x1 x2 1 (by omega) inb_S8x1024x256_S1x1024x256_1_0_0 inb_S8x256_S1x256_1_0 x
  · exact fun x => pieceQ x0 x1 x2 0 (by omega) inb_S8x1024x256_S1x1024x256_0_0_0 inb_S8x256_S1x256_0_0 x

/-- The attended-value block the body leaves is `blkV` of the input blocks. -/
theorem out4_eq (x0 x1 : Vec Ideal S8x1024x256 .f32) (x2 : Vec Ideal S256x256 .f32) :
    out0_4 (F := Ideal) x0 x1 x2 = blkV x0 x1 x2 := by
  funext y
  rw [out4_rows]
  refine View.canon_apply_of_pieces (blkV x0 x1 x2) _ ?_ y (cover0_4 _ _ _ _ _ _ _ _ y)
  intro p hp
  simp only [List.mem_cons, List.not_mem_nil, or_false] at hp
  rcases hp with rfl | rfl | rfl | rfl | rfl | rfl | rfl | rfl
  · exact fun x => pieceV x0 x1 x2 7 (by omega) inb_S8x1024x256_S1x1024x256_7_0_0 inb_S8x256_S1x256_7_0 x
  · exact fun x => pieceV x0 x1 x2 6 (by omega) inb_S8x1024x256_S1x1024x256_6_0_0 inb_S8x256_S1x256_6_0 x
  · exact fun x => pieceV x0 x1 x2 5 (by omega) inb_S8x1024x256_S1x1024x256_5_0_0 inb_S8x256_S1x256_5_0 x
  · exact fun x => pieceV x0 x1 x2 4 (by omega) inb_S8x1024x256_S1x1024x256_4_0_0 inb_S8x256_S1x256_4_0 x
  · exact fun x => pieceV x0 x1 x2 3 (by omega) inb_S8x1024x256_S1x1024x256_3_0_0 inb_S8x256_S1x256_3_0 x
  · exact fun x => pieceV x0 x1 x2 2 (by omega) inb_S8x1024x256_S1x1024x256_2_0_0 inb_S8x256_S1x256_2_0 x
  · exact fun x => pieceV x0 x1 x2 1 (by omega) inb_S8x1024x256_S1x1024x256_1_0_0 inb_S8x256_S1x256_1_0 x
  · exact fun x => pieceV x0 x1 x2 0 (by omega) inb_S8x1024x256_S1x1024x256_0_0_0 inb_S8x256_S1x256_0_0 x

end Cert.KernelIdeal.Blocks

end
-- ==== Proof.KernelArray.lean ====
/-
  From blocks to arrays. The grid has eight points; at point t every window but the weights' stands on block t along the
  batch axis (eight batch rows), the weights' on its one block. So batch row b of an input block at point t is batch
  8 t + b of the argument array, and what point t writes back to an output array is rows 8 t .. 8 t + 7 of the
  specification's result array. Every row of an output array lies in the block of the point numbered row / 8, so after
  the run each output array is the specification's result array of the argument arrays.
-/
import proofs.«147451_j44083544326830_2_alg».proof.Proof.Gen.KernelIdeal.Value
import proofs.«147451_j44083544326830_2_alg».proof.Proof.BlockRows
import proofs.«147451_j44083544326830_2_alg».proof.Proof.Spec
import Idealize.ShloMosaic.Lib.Pipeline.Value
import Idealize.ShloMosaic.Lib.ValueIdx

noncomputable section

namespace Cert.KernelIdeal.Arr

open Cert.KernelIdeal Cert.KernelIdeal.Gen Idealize.ShloMosaic Idealize.ShloMosaic.TcCoe Idealize.ShloMosaic.ValueIdx Idealize.SL.Sem
open Idealize.ShloMosaic.Pipeline (Dat)
open Cert.CoAtt Cert.KernelIdeal.Blocks

variable (m : (ℓ : Loc nD τ sig) → Buf (Elt Ideal) ℓ) (ρ : Dev nD → PrngReg)

/-- The printed index maps, decided over the grid: the batch-blocked windows stand on block t of the batch axis and
    block 0 of the others; the weights' window on block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks as rows of the argument arrays -/

/-- Batch row b of the query block at point t is batch 8 t + b of the query array. -/
theorem iblk0_apply (c : Dev nD) (t : Fin cfg0.N) (b : Fin 8) (i : Fin 1024) (k : Fin 256) (B : Fin 64) (hB : B.val = 8 * t.val + b.val) :
    (iblk m c 0 t : Vec Ideal S8x1024x256 .f32) (ix3 b i k)
      = (m ((c : Thread nD τ).loc main_arg0) : S64x1024x256.Idx → Elt Ideal .f32) (ix3 B i k) := by
  obtain ⟨e0, e1, e2, -⟩ := idx_facts t
  unfold iblk
  rw [View.read_apply]
  show V m c main_arg0 _ = m ((c : Thread nD τ).loc main_arg0) _
  unfold V
  refine congrArg _ (funext fun a => Fin.ext ?_)
  match a with
  | ⟨0, _⟩ => show win0_0.index t (0 : Fin 3) * 8 + 1 * b.val = B.val; rw [e0, hB]; omega
  | ⟨1, _⟩ => show win0_0.index t (1 : Fin 3) * 1024 + 1 * i.val = i.val; rw [e1]; omega
  | ⟨2, _⟩ => show win0_0.index t (2 : Fin 3) * 256 + 1 * k.val = k.val; rw [e2]; omega

/-- Batch row b of the value block at point t is batch 8 t + b of the value array. -/
theorem iblk1_apply (c : Dev nD) (t : Fin cfg0.N) (b : Fin 8) (i : Fin 1024) (k : Fin 256) (B : Fin 64) (hB : B.val = 8 * t.val + b.val) :
    (iblk m c 1 t : Vec Ideal S8x1024x256 .f32) (ix3 b i k)
      = (m ((c : Thread nD τ).loc main_arg1) : S64x1024x256.Idx → Elt Ideal .f32) (ix3 B i k) := by
  obtain ⟨-, -, -, e0, e1, e2, -⟩ := idx_facts t
  unfold iblk
  rw [View.read_apply]
  show V m c main_arg1 _ = m ((c : Thread nD τ).loc main_arg1) _
  unfold V
  refine congrArg _ (funext fun a => Fin.ext ?_)
  match a with
  | ⟨0, _⟩ => show win0_1.index t (0 : Fin 3) * 8 + 1 * b.val = B.val; rw [e0, hB]; omega
  | ⟨1, _⟩ => show win0_1.index t (1 : Fin 3) * 1024 + 1 * i.val = i.val; rw [e1]; omega
  | ⟨2, _⟩ => show win0_1.index t (2 : Fin 3) * 256 + 1 * k.val = k.val; rw [e2]; omega

/-- The weight block at any point is the weight array. -/
theorem iblk2_apply (c : Dev nD) (t : Fin cfg0.N) (k e : Fin 256) :
    (iblk m c 2 t : Vec Ideal S256x256 .f32) (ix2 k e)
      = (m ((c : Thread nD τ).loc main_arg2) : S256x256.Idx → Elt Ideal .f32) (ix2 k e) := by
  obtain ⟨-, -, -, -, -, -, e0, e1, -⟩ := idx_facts t
  unfold iblk
  rw [View.read_apply]
  show V m c main_arg2 _ = m ((c : Thread nD τ).loc main_arg2) _
  unfold V
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 256 + 1 * e.val = e.val; rw [e1]; omega

theorem brow0 (c : Dev nD) (t : Fin cfg0.N) (b : Fin 8) (B : Fin 64) (hB : B.val = 8 * t.val + b.val) :
    brow (iblk m c 0 t) b = slab (m ((c : Thread nD τ).loc main_arg0)) B :=
  funext fun i => funext fun k => iblk0_apply m c t b i k B hB

theorem brow1 (c : Dev nD) (t : Fin cfg0.N) (b : Fin 8) (B : Fin 64) (hB : B.val = 8 * t.val + b.val) :
    brow (iblk m c 1 t) b = slab (m ((c : Thread nD τ).loc main_arg1)) B :=
  funext fun i => funext fun k => iblk1_apply m c t b i k B hB

theorem mat2 (c : Dev nD) (t : Fin cfg0.N) : mat (iblk m c 2 t) = mat (m ((c : Thread nD τ).loc main_arg2)) :=
  funext fun k => funext fun e => iblk2_apply m c t k e

/-! ## The attended-query array -/

/-- What point t writes back to the attended-query array is block t of `outQ` of the argument arrays. -/
theorem flushed3_eq (c : Dev nD) (t : Fin cfg0.N) :
    (dats m 0 c).flushed 3 t = ((cfg0.win 3).blk t).view.read (Elt Ideal)
      (outQ (m ((c : Thread nD τ).loc main_arg0)) (m ((c : Thread nD τ).loc main_arg1)) (m ((c : Thread nD τ).loc main_arg2))) := by
  rw [Cert.KernelIdeal.Value.flushed3, out3_eq]
  funext y
  obtain ⟨b, d, rfl⟩ : ∃ (b : Fin 8) (d : Fin 256), y = ix2 b d := ⟨y 0, y 1, eq_ix2 y⟩
  have ht : t.val < 8 := lt_of_lt_of_eq t.isLt N_0
  have hB : 8 * t.val + b.val < 64 := by have := b.isLt; omega
  obtain ⟨-, -, -, -, -, -, -, -, e30, e31, e40, e41⟩ := idx_facts t
  have e : ((cfg0.win 3).blk t).view.emb (ix2 b d) = ix2 (⟨8 * t.val + b.val, hB⟩ : Fin 64) d :=
    funext fun a => Fin.ext (by
      match a with
      | ⟨0, _⟩ => show win0_3.index t (0 : Fin 2) * 8 + 1 * b.val = 8 * t.val + b.val; rw [e30]; omega
      | ⟨1, _⟩ => show win0_3.index t (1 : Fin 2) * 256 + 1 * d.val = d.val; rw [e31]; omega)
  show blkQ (iblk m c 0 t) (iblk m c 1 t) (iblk m c 2 t) (ix2 b d)
    = outQ (m ((c : Thread nD τ).loc main_arg0)) (m ((c : Thread nD τ).loc main_arg1)) (m ((c : Thread nD τ).loc main_arg2)) (((cfg0.win 3).blk t).view.emb (ix2 b d))
  rw [e, outQ_ix2]
  show attQ (brow (iblk m c 0 t) b) (brow (iblk m c 1 t) b) (mat (iblk m c 2 t)) d = _
  rw [brow0 m c t b ⟨8 * t.val + b.val, hB⟩ rfl, brow1 m c t b ⟨8 * t.val + b.val, hB⟩ rfl, mat2 m c t]

/-- An index of the attended-query array is in point t's block iff each coordinate is in the block's range. -/
theorem mem_blk3 (t : Fin cfg0.N) (i : S64x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v0_0).slice (win0_3.rect t)).set ↔ _
  rw [View.set_slice_whole, Rect.mem_set_unit]
  exact Iff.rfl

/-- Every row of the attended-query array is in the block of the point numbered row / 8. -/
theorem cover3 (i : S64x256.Idx) : ∃ t : Fin cfg0.N, (cfg0.win 3).flush t = true ∧ i ∈ ((cfg0.win 3).blk t).view.set := by
  have hi0 : (i 0).val < 64 := (i 0).isLt
  have hi1 : (i 1).val < 256 := (i 1).isLt
  let t : Fin cfg0.N := ⟨(i 0).val / 8, by rw [show cfg0.N = 8 from N_0]; omega⟩
  obtain ⟨-, -, -, -, -, -, -, -, e30, e31, e40, e41⟩ := idx_facts t
  have tv : t.val = (i 0).val / 8 := rfl
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; rw [e30, tv]; omega
  | ⟨1, _⟩ => show win0_3.index t (1 : Fin 2) * 256 ≤ (i 1).val ∧ (i 1).val < win0_3.index t (1 : Fin 2) * 256 + 256; rw [e31]; omega

/-- So the attended-query array ends holding `outQ` of the argument arrays. -/
theorem final3 (c : Dev nD) : (dats m 0 c).arrAt 3 cfg0.N
    = outQ (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## The attended-value array -/

/-- What point t writes back to the attended-value array is block t of `outV` of the argument arrays. -/
theorem flushed4_eq (c : Dev nD) (t : Fin cfg0.N) :
    (dats m 0 c).flushed 4 t = ((cfg0.win 4).blk t).view.read (Elt Ideal)
      (outV (m ((c : Thread nD τ).loc main_arg0)) (m ((c : Thread nD τ).loc main_arg1)) (m ((c : Thread nD τ).loc main_arg2))) := by
  rw [Cert.KernelIdeal.Value.flushed4, out4_eq]
  funext y
  obtain ⟨b, d, rfl⟩ : ∃ (b : Fin 8) (d : Fin 256), y = ix2 b d := ⟨y 0, y 1, eq_ix2 y⟩
  have ht : t.val < 8 := lt_of_lt_of_eq t.isLt N_0
  have hB : 8 * t.val + b.val < 64 := by have := b.isLt; omega
  obtain ⟨-, -, -, -, -, -, -, -, e30, e31, e40, e41⟩ := idx_facts t
  have e : ((cfg0.win 4).blk t).view.emb (ix2 b d) = ix2 (⟨8 * t.val + b.val, hB⟩ : Fin 64) d :=
    funext fun a => Fin.ext (by
      match a with
      | ⟨0, _⟩ => show win0_4.index t (0 : Fin 2) * 8 + 1 * b.val = 8 * t.val + b.val; rw [e40]; omega
      | ⟨1, _⟩ => show win0_4.index t (1 : Fin 2) * 256 + 1 * d.val = d.val; rw [e41]; omega)
  show blkV (iblk m c 0 t) (iblk m c 1 t) (iblk m c 2 t) (ix2 b d)
    = outV (m ((c : Thread nD τ).loc main_arg0)) (m ((c : Thread nD τ).loc main_arg1)) (m ((c : Thread nD τ).loc main_arg2)) (((cfg0.win 4).blk t).view.emb (ix2 b d))
  rw [e, outV_ix2]
  show attV (brow (iblk m c 0 t) b) (brow (iblk m c 1 t) b) (mat (iblk m c 2 t)) d = _
  rw [brow0 m c t b ⟨8 * t.val + b.val, hB⟩ rfl, brow1 m c t b ⟨8 * t.val + b.val, hB⟩ rfl, mat2 m c t]

/-- An index of the attended-value array is in point t's block iff each coordinate is in the block's range. -/
theorem mem_blk4 (t : Fin cfg0.N) (i : S64x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v0_1).slice (win0_4.rect t)).set ↔ _
  rw [View.set_slice_whole, Rect.mem_set_unit]
  exact Iff.rfl

/-- Every row of the attended-value array is in the block of the point numbered row / 8. -/
theorem cover4 (i : S64x256.Idx) : ∃ t : Fin cfg0.N, (cfg0.win 4).flush t = true ∧ i ∈ ((cfg0.win 4).blk t).view.set := by
  have hi0 : (i 0).val < 64 := (i 0).isLt
  have hi1 : (i 1).val < 256 := (i 1).isLt
  let t : Fin cfg0.N := ⟨(i 0).val / 8, by rw [show cfg0.N = 8 from N_0]; omega⟩
  obtain ⟨-, -, -, -, -, -, -, -, e30, e31, e40, e41⟩ := idx_facts t
  have tv : t.val = (i 0).val / 8 := rfl
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; rw [e40, tv]; omega
  | ⟨1, _⟩ => show win0_4.index t (1 : Fin 2) * 256 ≤ (i 1).val ∧ (i 1).val < win0_4.index t (1 : Fin 2) * 256 + 256; rw [e41]; omega

/-- So the attended-value array ends holding `outV` of the argument arrays. -/
theorem final4 (c : Dev nD) : (dats m 0 c).arrAt 4 cfg0.N
    = outV (m ((c : Thread nD τ).loc main_arg0)) (m ((c : Thread nD τ).loc main_arg1)) (m ((c : Thread nD τ).loc main_arg2)) :=
  (dats m 0 c).arrAt_eq_of_cover 4 _ (fun t _ => flushed4_eq m c t) cover4

/-! ## The run -/

/-- The kernel's run at the extended reals: each result array at the specification's function of the argument arrays,
    the arguments unchanged. -/
theorem run : θ_run defs (onTc (τ := τ) (main (F := Ideal))) ⟨m, fun _ => 0, ρ⟩ fun r => ∀ c : Dev nD,
      r.2.mem ((c : Thread nD τ).loc main_v0_0)
        = outQ (m ((c : Thread nD τ).loc main_arg0)) (m ((c : Thread nD τ).loc main_arg1)) (m ((c : Thread nD τ).loc main_arg2))
      ∧ r.2.mem ((c : Thread nD τ).loc main_v0_1)
        = outV (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Arr

end
-- ==== Proof.RefSpec.lean ====
/-
  The reference program, read one operation at a time at an index, computes the specification's two result arrays.

  For one batch element B, with q, v : [1024, 256] the batch's query and value rows and w : [256, 256]:
    stage 0 at (B, i, e)      is  proj q w i e            (the sum over k of q i k * w k e);
    stage 1 at (B, i, j)      is  the sum over e of proj q w i e * v j e;
    stage 2 at (B, i, j)      is  score q v w i j          (its hyperbolic tangent).
  A maximum-reduce over ONE axis is, at a result index, the fold of max from the initial value over that axis's
  coordinates (the fold over the set of source indices lying over the result index, re-indexed by the inserted
  coordinate): over axis 1 of the scores that is the best score of a value position, over axis 2 the best score of a
  query position, and over the last axis of a [64, 1, 1024] row the maximum of the row. The initial value is the
  pattern the specification calls ninf; it is never evaluated.
  The softmax stages then read, at (B, 0, p): the row entry x p, the shift M = max ninf (vmax x), exp (x p - M), the
  denominator (the sum over k of exp (x k - M), its zero initial value added and dropped), and the quotient, which is
  soft x p. The last contraction sums soft x p times row p of v (for the column maxima) or of q (for the row maxima)
  over p, and the closing reshape only renames (B, 0, d) as (B, d): both are flat position B * 256 + d.
  Every step is an equation between one element of a stage and elements of the stage before it; no algebraic law of
  the extended reals is used beyond 0 + s = s for the denominators.
-/
import proofs.«147451_j44083544326830_2_alg».proof.Proof.Gen.ReferenceIdeal.Read
import proofs.«147451_j44083544326830_2_alg».proof.Proof.Spec
import Idealize.ShloMosaic.PureOps.Reduce
import Idealize.ShloMosaic.PureOps.Ideal.Laws
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx Cert.CoAtt

/-! ## A maximum-reduce over one axis, at coordinates -/

/-- The shape fact that names the index inserted on axis 1 of a [64, 1024, 1024] array. -/
theorem red_d1 : S64x1024x1024.Reduces [1] S64x1024 := by decide

/-- Over result index (B, j), the source index with coordinate i on axis 1 is (B, i, j). -/
theorem lift_d1 (B : Fin 64) (j i : Fin 1024) : red_d1.lift (ix2 B j) i = ix3 B i j := by
  funext a
  apply Fin.ext
  match a with
  | ⟨0, _⟩ => rfl
  | ⟨1, _⟩ => rfl
  | ⟨2, _⟩ => rfl

/-- A maximum-reduce over axis 1 of a [64, 1024, 1024] array, at (B, j): the maximum over i of the array at (B, i, j). -/
theorem max_d1 (y : S64x1024x1024.Idx → EReal) (B : Fin 64) (j : Fin 1024) :
    Host.reduce (FloatOps.maximumf (F := Ideal) (φ := .f32)) y (constant (F := Ideal) S_ .f32 0xFF800000#32)
        reducesTo_S64x1024x1024_S64x1024_d1 h_S_ (ix2 B j)
      = vmax (fun i => y (ix3 B i j)) := by
  rw [Host.reduce_eq_fold_single _ _ _ reducesTo_S64x1024x1024_S64x1024_d1 red_d1]
  have e : (y ∘ red_d1.lift (ix2 B j)) = fun i : Fin 1024 => y (ix3 B i j) :=
    funext fun i => congrArg y (lift_d1 B j i)
  rw [e]
  rfl

/-- The shape fact that names the index inserted on axis 2 of a [64, 1024, 1024] array. -/
theorem red_d2 : S64x1024x1024.Reduces [2] S64x1024 := by decide

/-- Over result index (B, i), the source index with coordinate j on axis 2 is (B, i, j). -/
theorem lift_d2 (B : Fin 64) (i j : Fin 1024) : red_d2.lift (ix2 B i) j = ix3 B i j := by
  funext a
  apply Fin.ext
  match a with
  | ⟨0, _⟩ => rfl
  | ⟨1, _⟩ => rfl
  | ⟨2, _⟩ => rfl

/-- A maximum-reduce over axis 2 of a [64, 1024, 1024] array, at (B, i): the maximum over j of the array at (B, i, j). -/
theorem max_d2 (y : S64x1024x1024.Idx → EReal) (B : Fin 64) (i : Fin 1024) :
    Host.reduce (FloatOps.maximumf (F := Ideal) (φ := .f32)) y (constant (F := Ideal) S_ .f32 0xFF800000#32)
        reducesTo_S64x1024x1024_S64x1024_d2 h_S_ (ix2 B i)
      = vmax (fun j => y (ix3 B i j)) := by
  rw [Host.reduce_eq_fold_single _ _ _ reducesTo_S64x1024x1024_S64x1024_d2 red_d2]
  have e : (y ∘ red_d2.lift (ix2 B i)) = fun j : Fin 1024 => y (ix3 B i j) :=
    funext fun j => congrArg y (lift_d2 B i j)
  rw [e]
  rfl

/-- The shape fact that names the index inserted on axis 2 of a [64, 1, 1024] array. -/
theorem red_r2 : S64x1x1024.Reduces [2] S64x1 := by decide

/-- Over result index (B, 0), the source index with coordinate j on axis 2 is (B, 0, j). -/
theorem lift_r2 (B : Fin 64) (j : Fin 1024) : red_r2.lift (ix2 B (0 : Fin 1)) j = ix3 B (0 : Fin 1) j := by
  funext a
  apply Fin.ext
  match a with
  | ⟨0, _⟩ => rfl
  | ⟨1, _⟩ => rfl
  | ⟨2, _⟩ => rfl

/-- A maximum-reduce over axis 2 of a [64, 1, 1024] array, at (B, 0): the maximum over j of the array at (B, 0, j). -/
theorem max_r2 (y : S64x1x1024.Idx → EReal) (B : Fin 64) :
    Host.reduce (FloatOps.maximumf (F := Ideal) (φ := .f32)) y (constant (F := Ideal) S_ .f32 0xFF800000#32)
        reducesTo_S64x1x1024_S64x1_d2 h_S_ (ix2 B (0 : Fin 1))
      = vmax (fun j => y (ix3 B (0 : Fin 1) j)) := by
  rw [Host.reduce_eq_fold_single _ _ _ reducesTo_S64x1x1024_S64x1_d2 red_r2]
  have e : (y ∘ red_r2.lift (ix2 B (0 : Fin 1))) = fun j : Fin 1024 => y (ix3 B (0 : Fin 1) j) :=
    funext fun j => congrArg y (lift_r2 B j)
  rw [e]
  rfl

/-! ## The stages at coordinates -/

section Stages
variable (x0 x1 : (⟨S64x1024x256, .f32⟩ : BufTy).Contents (Elt Ideal)) (x2 : (⟨S256x256, .f32⟩ : BufTy).Contents (Elt Ideal))

/-- q times w at (B, i, e): the projection of query row i of batch B. -/
theorem v0_at (B : Fin 64) (i : Fin 1024) (e : Fin 256) :
    val_main_v0 (F := Ideal) x0 x2 (ix3 B i e) = proj (slab x0 B) (mat x2) i e := by
  rw [val_main_v0_apply]
  refine Finset.sum_congr rfl fun k _ => ?_
  have el : lidx_main_v0 (ix3 B i e) k = ix3 B i k := funext fun a => by
    match a with
    | ⟨0, _⟩ => rfl
    | ⟨1, _⟩ => rfl
    | ⟨2, _⟩ => rfl
  have er : ridx_main_v0 (ix3 B i e) k = ix2 k e := funext fun a => by
    match a with
    | ⟨0, _⟩ => rfl
    | ⟨1, _⟩ => rfl
  rw [el, er]
  rfl

/-- The bilinear form at (B, i, j), before the squashing. -/
theorem v1_at (B : Fin 64) (i j : Fin 1024) :
    val_main_v1 (F := Ideal) x0 x1 x2 (ix3 B i j) = ∑ e : Fin 256, proj (slab x0 B) (mat x2) i e * slab x1 B j e := by
  rw [val_main_v1_apply]
  refine Finset.sum_congr rfl fun k _ => ?_
  have el : lidx_main_v1 (ix3 B i j) k = ix3 B i k := funext fun a => by
    match a with
    | ⟨0, _⟩ => rfl
    | ⟨1, _⟩ => rfl
    | ⟨2, _⟩ => rfl
  have er : ridx_main_v1 (ix3 B i j) k = ix3 B j k := funext fun a => by
    match a with
    | ⟨0, _⟩ => rfl
    | ⟨1, _⟩ => rfl
    | ⟨2, _⟩ => rfl
  rw [el, er, v0_at]
  rfl

/-- The score at (B, i, j). -/
theorem v2_at (B : Fin 64) (i j : Fin 1024) :
    val_main_v2 (F := Ideal) x0 x1 x2 (ix3 B i j) = score (slab x0 B) (slab x1 B) (mat x2) i j := by
  rw [val_main_v2_apply, v1_at]
  rfl

/-- The best score of value position j, at (B, j). -/
theorem v3_at (B : Fin 64) (j : Fin 1024) :
    val_main_v3 (F := Ideal) x0 x1 x2 (ix2 B j) = vmax fun i => score (slab x0 B) (slab x1 B) (mat x2) i j := by
  unfold val_main_v3 val_main_cst
  refine (max_d1 _ B j).trans ?_
  exact congrArg vmax (funext fun i => v2_at x0 x1 x2 B i j)

/-! ## The softmax over the value positions' best scores, and the attended value vector -/

/-- The best score of a value position, as the row the softmax runs over: that of position p, laid out at (B, 0, p). -/
theorem v4_at (B : Fin 64) (p : Fin 1024) :
    val_main_v4 (F := Ideal) x0 x1 x2 (ix3 B (0 : Fin 1) p) = vmax fun i => score (slab x0 B) (slab x1 B) (mat x2) i p := by
  rw [val_main_v4_apply]
  have e : idx_main_v4 (ix3 B (0 : Fin 1) p) = ix2 B p := funext fun a => by
    match a with
    | ⟨0, _⟩ => rfl
    | ⟨1, _⟩ => rfl
  rw [e, v3_at]

/-- The maximum over all positions of those best scores, at (B, 0). -/
theorem v5_at (B : Fin 64) :
    val_main_v5 (F := Ideal) x0 x1 x2 (ix2 B (0 : Fin 1)) = vmax (fun j' => vmax fun i => score (slab x0 B) (slab x1 B) (mat x2) i j') := by
  unfold val_main_v5 val_main_cst_0
  refine (max_r2 _ B).trans ?_
  exact congrArg vmax (funext fun p => v4_at x0 x1 x2 B p)

/-- The softmax shift: that maximum, once more against minus infinity. -/
theorem v7_at (B : Fin 64) :
    val_main_v7 (F := Ideal) x0 x1 x2 (ix2 B (0 : Fin 1)) = max ninf (vmax (fun j' => vmax fun i => score (slab x0 B) (slab x1 B) (mat x2) i j')) := by
  rw [val_main_v7_apply, val_main_v6_apply, v5_at]
  rfl

/-- The shift broadcast back to (B, 0, p). -/
theorem v9_at (B : Fin 64) (p : Fin 1024) :
    val_main_v9 (F := Ideal) x0 x1 x2 (ix3 B (0 : Fin 1) p) = max ninf (vmax (fun j' => vmax fun i => score (slab x0 B) (slab x1 B) (mat x2) i j')) := by
  rw [val_main_v9_apply, val_main_v8_apply]
  have e : idx_main_v8 (idx_main_v9 (ix3 B (0 : Fin 1) p)) = ix2 B (0 : Fin 1) := funext fun a => by
    match a with
    | ⟨0, _⟩ => rfl
    | ⟨1, _⟩ => rfl
  rw [e, v7_at]

/-- The shifted exponential at (B, 0, p). -/
theorem v11_at (B : Fin 64) (p : Fin 1024) :
    val_main_v11 (F := Ideal) x0 x1 x2 (ix3 B (0 : Fin 1) p)
      = Ideal.exp ((vmax fun i => score (slab x0 B) (slab x1 B) (mat x2) i p) - max ninf (vmax (fun j' => vmax fun i => score (slab x0 B) (slab x1 B) (mat x2) i j'))) := by
  rw [val_main_v11_apply, val_main_v10_apply, v4_at, v9_at]
  rfl

/-- The softmax denominator at (B, 0): the sum of the shifted exponentials, from a zero initial value. -/
theorem v12_at (B : Fin 64) :
    val_main_v12 (F := Ideal) x0 x1 x2 (ix2 B (0 : Fin 1))
      = ∑ k : Fin 1024, Ideal.exp ((vmax fun i => score (slab x0 B) (slab x1 B) (mat x2) i k) - max ninf (vmax (fun j' => vmax fun i => score (slab x0 B) (slab x1 B) (mat x2) i j'))) := by
  rw [val_main_v12_apply]
  have z : val_main_cst_2 (F := Ideal) (Shape.Idx.first h_S_) = 0 := Ideal.ofBits_zero_f32
  rw [z, zero_add]
  refine Finset.sum_congr rfl fun k _ => ?_
  have e : idx_main_v12 (ix2 B (0 : Fin 1)) k = ix3 B (0 : Fin 1) k := funext fun a => by
    match a with
    | ⟨0, _⟩ => rfl
    | ⟨1, _⟩ => rfl
    | ⟨2, _⟩ => rfl
  rw [e, v11_at]

/-- The denominator broadcast back to (B, 0, p). -/
theorem v14_at (B : Fin 64) (p : Fin 1024) :
    val_main_v14 (F := Ideal) x0 x1 x2 (ix3 B (0 : Fin 1) p)
      = ∑ k : Fin 1024, Ideal.exp ((vmax fun i => score (slab x0 B) (slab x1 B) (mat x2) i k) - max ninf (vmax (fun j' => vmax fun i => score (slab x0 B) (slab x1 B) (mat x2) i j'))) := by
  rw [val_main_v14_apply, val_main_v13_apply]
  have e : idx_main_v13 (idx_main_v14 (ix3 B (0 : Fin 1) p)) = ix2 B (0 : Fin 1) := funext fun a => by
    match a with
    | ⟨0, _⟩ => rfl
    | ⟨1, _⟩ => rfl
  rw [e, v12_at]

/-- The softmax weight of position p at (B, 0, p). -/
theorem v15_at (B : Fin 64) (p : Fin 1024) :
    val_main_v15 (F := Ideal) x0 x1 x2 (ix3 B (0 : Fin 1) p) = soft (fun j' => vmax fun i => score (slab x0 B) (slab x1 B) (mat x2) i j') p := by
  rw [val_main_v15_apply, v11_at, v14_at]
  rfl

/-- The attended value vector at (B, 0, d). -/
theorem v29_at (B : Fin 64) (d : Fin 256) :
    val_main_v29 (F := Ideal) x0 x1 x2 (ix3 B (0 : Fin 1) d) = attV (slab x0 B) (slab x1 B) (mat x2) d := by
  rw [val_main_v29_apply]
  refine Finset.sum_congr rfl fun k _ => ?_
  have el : lidx_main_v29 (ix3 B (0 : Fin 1) d) k = ix3 B (0 : Fin 1) k := funext fun a => by
    match a with
    | ⟨0, _⟩ => rfl
    | ⟨1, _⟩ => rfl
    | ⟨2, _⟩ => rfl
  have er : ridx_main_v29 (ix3 B (0 : Fin 1) d) k = ix3 B k d := funext fun a => by
    match a with
    | ⟨0, _⟩ => rfl
    | ⟨1, _⟩ => rfl
    | ⟨2, _⟩ => rfl
  rw [el, er, v15_at]
  rfl

/-- The same with the unit axis removed, at (B, d): flat position B * 256 + d of both layouts. -/
theorem v30_at (B : Fin 64) (d : Fin 256) :
    val_main_v30 (F := Ideal) x0 x1 x2 (ix2 B d) = attV (slab x0 B) (slab x1 B) (mat x2) d := by
  rw [val_main_v30_apply]
  have hB := B.isLt
  have hd := d.isLt
  have e : idx_main_v30 (ix2 B d) = ix3 B (0 : Fin 1) d := funext fun a => Fin.ext (by
    match a with
    | ⟨0, _⟩ => show (B.val * 256 + d.val) / 256 = B.val; omega
    | ⟨1, _⟩ => rfl
    | ⟨2, _⟩ => show (B.val * 256 + d.val) % 256 = d.val; omega)
  rw [e, v29_at]

/-! ## The softmax over the query positions' best scores, and the attended query vector -/

/-- The best score of query position i, at (B, i). -/
theorem v16_at (B : Fin 64) (i : Fin 1024) :
    val_main_v16 (F := Ideal) x0 x1 x2 (ix2 B i) = vmax fun j => score (slab x0 B) (slab x1 B) (mat x2) i j := by
  unfold val_main_v16 val_main_cst_3
  refine (max_d2 _ B i).trans ?_
  exact congrArg vmax (funext fun j => v2_at x0 x1 x2 B i j)

/-- The best score of a query position, as the row the softmax runs over: that of position p, laid out at (B, 0, p). -/
theorem v17_at (B : Fin 64) (p : Fin 1024) :
    val_main_v17 (F := Ideal) x0 x1 x2 (ix3 B (0 : Fin 1) p) = vmax fun j => score (slab x0 B) (slab x1 B) (mat x2) p j := by
  rw [val_main_v17_apply]
  have e : idx_main_v17 (ix3 B (0 : Fin 1) p) = ix2 B p := funext fun a => by
    match a with
    | ⟨0, _⟩ => rfl
    | ⟨1, _⟩ => rfl
  rw [e, v16_at]

/-- The maximum over all positions of those best scores, at (B, 0). -/
theorem v18_at (B : Fin 64) :
    val_main_v18 (F := Ideal) x0 x1 x2 (ix2 B (0 : Fin 1)) = vmax (fun i' => vmax fun j => score (slab x0 B) (slab x1 B) (mat x2) i' j) := by
  unfold val_main_v18 val_main_cst_4
  refine (max_r2 _ B).trans ?_
  exact congrArg vmax (funext fun p => v17_at x0 x1 x2 B p)

/-- The softmax shift: that maximum, once more against minus infinity. -/
theorem v20_at (B : Fin 64) :
    val_main_v20 (F := Ideal) x0 x1 x2 (ix2 B (0 : Fin 1)) = max ninf (vmax (fun i' => vmax fun j => score (slab x0 B) (slab x1 B) (mat x2) i' j)) := by
  rw [val_main_v20_apply, val_main_v19_apply, v18_at]
  rfl

/-- The shift broadcast back to (B, 0, p). -/
theorem v22_at (B : Fin 64) (p : Fin 1024) :
    val_main_v22 (F := Ideal) x0 x1 x2 (ix3 B (0 : Fin 1) p) = max ninf (vmax (fun i' => vmax fun j => score (slab x0 B) (slab x1 B) (mat x2) i' j)) := by
  rw [val_main_v22_apply, val_main_v21_apply]
  have e : idx_main_v21 (idx_main_v22 (ix3 B (0 : Fin 1) p)) = ix2 B (0 : Fin 1) := funext fun a => by
    match a with
    | ⟨0, _⟩ => rfl
    | ⟨1, _⟩ => rfl
  rw [e, v20_at]

/-- The shifted exponential at (B, 0, p). -/
theorem v24_at (B : Fin 64) (p : Fin 1024) :
    val_main_v24 (F := Ideal) x0 x1 x2 (ix3 B (0 : Fin 1) p)
      = Ideal.exp ((vmax fun j => score (slab x0 B) (slab x1 B) (mat x2) p j) - max ninf (vmax (fun i' => vmax fun j => score (slab x0 B) (slab x1 B) (mat x2) i' j))) := by
  rw [val_main_v24_apply, val_main_v23_apply, v17_at, v22_at]
  rfl

/-- The softmax denominator at (B, 0): the sum of the shifted exponentials, from a zero initial value. -/
theorem v25_at (B : Fin 64) :
    val_main_v25 (F := Ideal) x0 x1 x2 (ix2 B (0 : Fin 1))
      = ∑ k : Fin 1024, Ideal.exp ((vmax fun j => score (slab x0 B) (slab x1 B) (mat x2) k j) - max ninf (vmax (fun i' => vmax fun j => score (slab x0 B) (slab x1 B) (mat x2) i' j))) := by
  rw [val_main_v25_apply]
  have z : val_main_cst_6 (F := Ideal) (Shape.Idx.first h_S_) = 0 := Ideal.ofBits_zero_f32
  rw [z, zero_add]
  refine Finset.sum_congr rfl fun k _ => ?_
  have e : idx_main_v25 (ix2 B (0 : Fin 1)) k = ix3 B (0 : Fin 1) k := funext fun a => by
    match a with
    | ⟨0, _⟩ => rfl
    | ⟨1, _⟩ => rfl
    | ⟨2, _⟩ => rfl
  rw [e, v24_at]

/-- The denominator broadcast back to (B, 0, p). -/
theorem v27_at (B : Fin 64) (p : Fin 1024) :
    val_main_v27 (F := Ideal) x0 x1 x2 (ix3 B (0 : Fin 1) p)
      = ∑ k : Fin 1024, Ideal.exp ((vmax fun j => score (slab x0 B) (slab x1 B) (mat x2) k j) - max ninf (vmax (fun i' => vmax fun j => score (slab x0 B) (slab x1 B) (mat x2) i' j))) := by
  rw [val_main_v27_apply, val_main_v26_apply]
  have e : idx_main_v26 (idx_main_v27 (ix3 B (0 : Fin 1) p)) = ix2 B (0 : Fin 1) := funext fun a => by
    match a with
    | ⟨0, _⟩ => rfl
    | ⟨1, _⟩ => rfl
  rw [e, v25_at]

/-- The softmax weight of position p at (B, 0, p). -/
theorem v28_at (B : Fin 64) (p : Fin 1024) :
    val_main_v28 (F := Ideal) x0 x1 x2 (ix3 B (0 : Fin 1) p) = soft (fun i' => vmax fun j => score (slab x0 B) (slab x1 B) (mat x2) i' j) p := by
  rw [val_main_v28_apply, v24_at, v27_at]
  rfl

/-- The attended query vector at (B, 0, d). -/
theorem v31_at (B : Fin 64) (d : Fin 256) :
    val_main_v31 (F := Ideal) x0 x1 x2 (ix3 B (0 : Fin 1) d) = attQ (slab x0 B) (slab x1 B) (mat x2) d := by
  rw [val_main_v31_apply]
  refine Finset.sum_congr rfl fun k _ => ?_
  have el : lidx_main_v31 (ix3 B (0 : Fin 1) d) k = ix3 B (0 : Fin 1) k := funext fun a => by
    match a with
    | ⟨0, _⟩ => rfl
    | ⟨1, _⟩ => rfl
    | ⟨2, _⟩ => rfl
  have er : ridx_main_v31 (ix3 B (0 : Fin 1) d) k = ix3 B k d := funext fun a => by
    match a with
    | ⟨0, _⟩ => rfl
    | ⟨1, _⟩ => rfl
    | ⟨2, _⟩ => rfl
  rw [el, er, v28_at]
  rfl

/-- The same with the unit axis removed, at (B, d): flat position B * 256 + d of both layouts. -/
theorem v32_at (B : Fin 64) (d : Fin 256) :
    val_main_v32 (F := Ideal) x0 x1 x2 (ix2 B d) = attQ (slab x0 B) (slab x1 B) (mat x2) d := by
  rw [val_main_v32_apply]
  have hB := B.isLt
  have hd := d.isLt
  have e : idx_main_v32 (ix2 B d) = ix3 B (0 : Fin 1) d := funext fun a => Fin.ext (by
    match a with
    | ⟨0, _⟩ => show (B.val * 256 + d.val) / 256 = B.val; omega
    | ⟨1, _⟩ => rfl
    | ⟨2, _⟩ => show (B.val * 256 + d.val) % 256 = d.val; omega)
  rw [e, v31_at]

end Stages

/-- The reference's attended-value result is the specification's. -/
theorem ref_outV (x0 x1 : (⟨S64x1024x256, .f32⟩ : BufTy).Contents (Elt Ideal)) (x2 : (⟨S256x256, .f32⟩ : BufTy).Contents (Elt Ideal)) :
    Cert.ReferenceIdeal.Read.val_main_v30 (F := Ideal) x0 x1 x2 = Cert.CoAtt.outV x0 x1 x2 := by
  funext i
  obtain ⟨B, d, rfl⟩ : ∃ (B : Fin 64) (d : Fin 256), i = ix2 B d := ⟨i 0, i 1, eq_ix2 i⟩
  rw [outV_ix2]
  exact v30_at x0 x1 x2 B d

/-- The reference's attended-query result is the specification's. -/
theorem ref_outQ (x0 x1 : (⟨S64x1024x256, .f32⟩ : BufTy).Contents (Elt Ideal)) (x2 : (⟨S256x256, .f32⟩ : BufTy).Contents (Elt Ideal)) :
    Cert.ReferenceIdeal.Read.val_main_v32 (F := Ideal) x0 x1 x2 = Cert.CoAtt.outQ x0 x1 x2 := by
  funext i
  obtain ⟨B, d, rfl⟩ : ∃ (B : Fin 64) (d : Fin 256), i = ix2 B d := ⟨i 0, i 1, eq_ix2 i⟩
  rw [outQ_ix2]
  exact v32_at x0 x1 x2 B d

end Cert.ReferenceIdeal.RefSpec

end
-- ==== Proof.lean ====
/-
  Bilinear co-attention. For each of 64 batch elements, with q, v : [1024, 256] and w : [256, 256]:
  the scores are s = tanh ((q w) vᵀ) : [1024, 1024]; each value position's best score (the maximum of s down a column)
  and each query position's best score (the maximum along a row) are turned into weights by a softmax shifted by its
  maximum; the two results are the value rows summed with the first weights and the query rows summed with the second.

  The kernel computes eight batch elements per grid point, each by the same sequence of operations, on low-precision
  copies of its operands and with its matrix products accumulated in a zero accumulator; the reference computes all 64 at
  once by batched contractions. Over the extended reals a change of float format is the identity, a product accumulated
  from zero is the plain sum of products, and the two programs' reductions are the same folds and sums, so both programs
  compute, element by element, the SAME expression of the arguments (Spec): no algebraic law relates them beyond
  0 + s = s, and finiteness of the inputs is never used.

  Kernel side: each of the body's sixteen row stores is one of two row functions of that row's loads (RowFn); read at an
  index these are the specification's attQ / attV of the row (RowValue); so each output block is one function of the
  block index (BlockRows), block t of the result arrays, which the blocks tile (KernelArray). Reference side: every
  operation read at an index, the four maximum-reduces as folds over the reduced axis (RefSpec). The frames are the
  generated frame certificates and, for the reference, its generated run with the results dropped; the idealization
  rewrote nothing, so there is nothing to preserve.
-/
import proofs.«147451_j44083544326830_2_alg».proof.Defs
import proofs.«147451_j44083544326830_2_alg».proof.Proof.Gen.Kernel
import proofs.«147451_j44083544326830_2_alg».proof.Proof.Gen.Kernel.Skeleton
import proofs.«147451_j44083544326830_2_alg».proof.Proof.Gen.Kernel.Launch
import proofs.«147451_j44083544326830_2_alg».proof.Proof.Gen.Kernel.Points
import proofs.«147451_j44083544326830_2_alg».proof.Proof.Gen.Kernel.Frame
import proofs.«147451_j44083544326830_2_alg».proof.Proof.Gen.KernelIdeal
import proofs.«147451_j44083544326830_2_alg».proof.Proof.Gen.KernelIdeal.Skeleton
import proofs.«147451_j44083544326830_2_alg».proof.Proof.Gen.KernelIdeal.Launch
import proofs.«147451_j44083544326830_2_alg».proof.Proof.Gen.KernelIdeal.Points
import proofs.«147451_j44083544326830_2_alg».proof.Proof.Gen.KernelIdeal.Frame
import proofs.«147451_j44083544326830_2_alg».proof.Proof.Gen.ReferenceIdeal
import proofs.«147451_j44083544326830_2_alg».proof.Proof.Gen.Pre_finite_inputs
import proofs.«147451_j44083544326830_2_alg».proof.Proof.Gen.KernelIdeal.Value
import proofs.«147451_j44083544326830_2_alg».proof.Proof.Gen.ReferenceIdeal.Run
import proofs.«147451_j44083544326830_2_alg».proof.Proof.Gen.ReferenceIdeal.Read
import proofs.«147451_j44083544326830_2_alg».proof.Proof.Spec
import proofs.«147451_j44083544326830_2_alg».proof.Proof.KernelArray
import proofs.«147451_j44083544326830_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the specification's two result arrays of their (agreeing) arguments. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ?_) (Cert.ReferenceIdeal.Value.run (F := Ideal) m' ρ')
  obtain ⟨hq, hv, hrest⟩ := h c
  refine ⟨?_, ?_, hrest⟩
  · rw [hq, Cert.ReferenceIdeal.Read.val_main_v32_eq, Cert.ReferenceIdeal.RefSpec.ref_outQ, (hagree c).1, (hagree c).2.1, (hagree c).2.2]
  · rw [hv, Cert.ReferenceIdeal.Read.val_main_v30_eq, Cert.ReferenceIdeal.RefSpec.ref_outV, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
